-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024 : Shape := ⟨1, ![1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1024 .f32) (main_arg2 : FVec F S1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S1024x3072 : Shape := ⟨2, ![1024, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩

abbrev nBuf : Space → Nat
  | .hbm => 24
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x3072, .f32⟩
  | .hbm, ⟨16, _⟩ => ⟨S1024x3072, .bf16⟩
  | .hbm, ⟨17, _⟩ => ⟨S1024x1024, .f32⟩
  | .hbm, ⟨18, _⟩ => ⟨S1024x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S2x2048x1024_S4096x1024 : S2x2048x1024.ShapeCasts S4096x1024
  shapeCasts_S1024_S1x1024 : S1024.ShapeCasts S1x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  packedbf16_S256x1024_S256x1024_0_0 : (Rect.unit (s := S256x1024) ![0, 0] S256x1024.size inb_S256x1024_S256x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  broadcasts_S256x1_S256x2048 : S256x1.Broadcasts S256x2048
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S256x1024_S1024x3072_S256x3072_1_0_0_1_n_n_wf : DotDims.WF S256x1024 S1024x3072 S256x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .bf16 = 32 ∨ (Rect.block (s := S4096x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .bf16 = 32 ∨ (Rect.block (s := S4096x1024) S256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x1024.size a
  hwx1_1 : ∀ i : grid1.Coords, EltTy.bits .bf16 = 32 ∨ (Rect.block (s := S4096x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S4096x1024.size a
  hwx1_2 : ∀ i : grid1.Coords, EltTy.bits .bf16 = 32 ∨ (Rect.block (s := S4096x1024) S2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S4096x1024.size a
  hwx1_5 : ∀ i : grid1.Coords, EltTy.bits .f32 = 32 ∨ (Rect.block (s := S4096x1024) S256x1024.size (cc1_transform_5 i) (hinb1_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x16x64, .f32⟩
  | .hbm, ⟨39, _⟩ => ⟨S2x16x2048x64, .f32⟩
  | .hbm, ⟨40, _⟩ => ⟨S_, .f32⟩
  | .hbm, ⟨41, _⟩ => ⟨S2x16x2048x64, .f32⟩
  | .hbm, ⟨42, _⟩ => ⟨S2x16x2048x64, .f32⟩
  | .hbm, ⟨43, _⟩ => ⟨S2x2048x1024, .f32⟩
  | .hbm, ⟨44, _⟩ => ⟨S2x2048x16x64, .f32⟩
  | .hbm, ⟨45, _⟩ => ⟨S2x16x2048x64, .f32⟩
  | .hbm, ⟨46, _⟩ => ⟨S2x2048x1024, .f32⟩
  | .hbm, ⟨47, _⟩ => ⟨S2x2048x16x64, .f32⟩
  | .hbm, ⟨48, _⟩ => ⟨S2x16x2048x64, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S_, .f32⟩
  | .hbm, ⟨53, _⟩ => ⟨S2x16x2048, .f32⟩
  | .hbm, ⟨54, _⟩ => ⟨S2x16x2048, .f32⟩
  | .hbm, ⟨55, _⟩ => ⟨S2x16x2048x1, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S2x16x2048, .f32⟩
  | .hbm, ⟨61, _⟩ => ⟨S2x16x2048x1, .f32⟩
  | .hbm, ⟨62, _⟩ => ⟨S2x16x2048x2048, .f32⟩
  | .hbm, ⟨63, _⟩ => ⟨S2x16x2048x2048, .f32⟩
  | .hbm, ⟨64, _⟩ => ⟨S2x16x2048x64, .f32⟩
  | .hbm, ⟨65, _⟩ => ⟨S2x2048x16x64, .f32⟩
  | .hbm, ⟨66, _⟩ => ⟨S2x2048x1024, .f32⟩
  | .hbm, ⟨67, _⟩ => ⟨S2x2048x1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.TermsK.lean ====
/-
  What the two kernel bodies store, as functions of what they load.

  The first body loads a block of 256 rows of x, the scale γ, the shift β and the 1024 × 3072 weight matrix, and stores
  three 256 × 1024 blocks: the columns 0–1023 of the product (times 1/8), the columns 1024–2047 and the columns
  2048–3071. The second body loads 256 query rows, all 2048 key rows and value rows of the batch entry, the output
  weights and the bias, computes the sixteen heads' outputs, puts them side by side and stores that block's product with
  the output weights plus the bias.
-/
import proofs.«130152_j1030792151557_2_alg».proof.Proof.Gen.Kernel.Skeleton

noncomputable section

namespace Cert.Kernel.Hand

open Idealize.ShloMosaic Idealize.SL.Sem Cert.Kernel Cert.Kernel.Gen

variable {F : FTy → Type} [FloatOps F]

/-- The first body's three stored blocks. -/
def stQ (x : Vec F S256x1024 .f32) (g be : Vec F S1x1024 .f32) (w : Vec F S1024x3072 .bf16) : FVec F S256x1024 .bf16 :=
  k0_pay4 x g be w
def stK (x : Vec F S256x1024 .f32) (g be : Vec F S1x1024 .f32) (w : Vec F S1024x3072 .bf16) : FVec F S256x1024 .bf16 :=
  k0_pay5 x g be w
def stV (x : Vec F S256x1024 .f32) (g be : Vec F S1x1024 .f32) (w : Vec F S1024x3072 .bf16) : FVec F S256x1024 .bf16 :=
  k0_pay1 (k0_pay3 x g be w)

/-- The sixteen heads' outputs of the second body, in order. -/
def heads (q : Vec F S256x1024 .bf16) (k v : Vec F S2048x1024 .bf16) : Fin 16 → FVec F S256x64 .f32 :=
  ![k1_pay6 q k v, k1_pay7 q k v,
    k1_pay11 (k1_pay8 v) (k1_pay9 q k) (k1_pay10 q k),
    k1_pay12 (k1_pay3 q) (k1_pay4 k) (k1_pay5 v), k1_pay13 (k1_pay3 q) (k1_pay4 k) (k1_pay5 v),
    k1_pay16 (k1_pay14 (k1_pay5 v)) (k1_pay15 (k1_pay3 q) (k1_pay4 k)),
    k1_pay17 (k1_pay3 q) (k1_pay4 k) (k1_pay5 v), k1_pay18 (k1_pay3 q) (k1_pay4 k) (k1_pay5 v),
    k1_pay22 (k1_pay19 (k1_pay5 v)) (k1_pay20 (k1_pay3 q) (k1_pay4 k)) (k1_pay21 (k1_pay3 q) (k1_pay4 k)),
    k1_pay23 (k1_pay3 q) (k1_pay4 k) (k1_pay5 v), k1_pay24 (k1_pay3 q) (k1_pay4 k) (k1_pay5 v),
    k1_pay27 (k1_pay25 (k1_pay5 v)) (k1_pay26 (k1_pay3 q) (k1_pay4 k)),
    k1_pay28 (k1_pay3 q) (k1_pay4 k) (k1_pay5 v), k1_pay29 (k1_pay3 q) (k1_pay4 k) (k1_pay5 v),
    k1_pay30 (k1_pay3 q) (k1_pay4 k) (k1_pay5 v),
    k1_pay1 (k1_pay4 k) (k1_pay5 v) (k1_pay31 (k1_pay3 q))]

/-- The heads side by side. -/
def headsCat (q : Vec F S256x1024 .bf16) (k v : Vec F S2048x1024 .bf16) : FVec F S256x1024 .f32 :=
  concatenate S256x1024 1 [⟨S256x64, heads q k v 0⟩, ⟨S256x64, heads q k v 1⟩, ⟨S256x64, heads q k v 2⟩, ⟨S256x64, heads q k v 3⟩,
    ⟨S256x64, heads q k v 4⟩, ⟨S256x64, heads q k v 5⟩, ⟨S256x64, heads q k v 6⟩, ⟨S256x64, heads q k v 7⟩,
    ⟨S256x64, heads q k v 8⟩, ⟨S256x64, heads q k v 9⟩, ⟨S256x64, heads q k v 10⟩, ⟨S256x64, heads q k v 11⟩,
    ⟨S256x64, heads q k v 12⟩, ⟨S256x64, heads q k v 13⟩, ⟨S256x64, heads q k v 14⟩, ⟨S256x64, heads q k v 15⟩]
    concatenates_S256x64_S256x64_S256x64_S256x64_S256x64_S256x64_S256x64_S256x64_S256x64_S256x64_S256x64_S256x64_S256x64_S256x64_S256x64_S256x64_S256x1024_d1

/-- The second body's stored block. -/
def stO (q : Vec F S256x1024 .bf16) (k v : Vec F S2048x1024 .bf16) (wo : Vec F S1024x1024 .bf16) (bo : Vec F S1x1024 .f32) :
    FVec F S256x1024 .f32 :=
  k1_pay2 (headsCat q k v) wo bo

end Cert.Kernel.Hand

end
-- ==== Proof.FrameDefsK.lean ====
/-
  The two kernel regions' proof data and the buffer contents at every boundary of the program's run.

  The program is: eleven host operations (reshapes, transposes, a concatenation and two roundings), the first kernel
  region (layer normalisation and the fused projection), the second kernel region (attention per head and the output
  projection), one host reshape. Each region's body is a closed function of the blocks it loads; what a region leaves
  in an output array is the fold of its write-backs. The contents at each boundary are folded from the launch memory.
-/
import proofs.«130152_j1030792151557_2_alg».proof.Proof.Gen.Kernel.Launch
import proofs.«130152_j1030792151557_2_alg».proof.Proof.Gen.Kernel.Skeleton
import proofs.«130152_j1030792151557_2_alg».proof.Proof.Gen.Kernel.Points
import proofs.«130152_j1030792151557_2_alg».proof.Proof.Gen.Kernel.Regions
import proofs.«130152_j1030792151557_2_alg».proof.Proof.TermsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the bodies load and store through. -/
abbrev rX : Rect S256x1024 := Rect.unit (s := S256x1024) ![0, 0] S256x1024.size inb_S256x1024_S256x1024_0_0
abbrev r1 : Rect S1x1024 := Rect.unit (s := S1x1024) ![0, 0] S1x1024.size inb_S1x1024_S1x1024_0_0
abbrev r3 : Rect S1024x3072 := Rect.unit (s := S1024x3072) ![0, 0] S1024x3072.size inb_S1024x3072_S1024x3072_0_0
abbrev rk : Rect S2048x1024 := Rect.unit (s := S2048x1024) ![0, 0] S2048x1024.size inb_S2048x1024_S2048x1024_0_0
abbrev rw : Rect S1024x1024 := Rect.unit (s := S1024x1024) ![0, 0] S1024x1024.size inb_S1024x1024_S1024x1024_0_0

/-- What the first body leaves in each of its three output buffers, from the four blocks it loads: one store each,
    over the whole buffer. -/
def out0_4 (x : Vec F S256x1024 .f32) (g be : Vec F S1x1024 .f32) (w : Vec F S1024x3072 .bf16) : Vec F S256x1024 .bf16 :=
  View.canon [⟨rX, stQ (View.ld x rX) (View.ld g r1) (View.ld be r1) (View.ld w r3)⟩]
def out0_5 (x : Vec F S256x1024 .f32) (g be : Vec F S1x1024 .f32) (w : Vec F S1024x3072 .bf16) : Vec F S256x1024 .bf16 :=
  View.canon [⟨rX, stK (View.ld x rX) (View.ld g r1) (View.ld be r1) (View.ld w r3)⟩]
def out0_6 (x : Vec F S256x1024 .f32) (g be : Vec F S1x1024 .f32) (w : Vec F S1024x3072 .bf16) : Vec F S256x1024 .bf16 :=
  View.canon [⟨rX, stV (View.ld x rX) (View.ld g r1) (View.ld be r1) (View.ld w r3)⟩]

/-- A single whole-buffer store covers the buffer. -/
theorem coverX {e : EltTy} (p0 : rX.shape.Idx → Elt F e) (y : S256x1024.Idx) :
    ∃ pc ∈ ([⟨rX, p0⟩] : List (View.Piece (Elt F) S256x1024 e)), y ∈ pc.1.set :=
  View.cover_of_tiled [⟨rX, p0⟩] S256x1024.size (by rfl) y

/-- The proof data of the first region on core `c`: the arrays as the region finds them; after the body at point
    `t` each input's buffer at its block and each output's at `out0_W` of the input blocks; the untouched rest as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t
    = out0_4 (iblk0 V c 0 t) (iblk0 V c 1 t) (iblk0 V c 2 t) (iblk0 V c 3 t) := by dsimp only [dat0]
theorem after0_5 (c : Dev nD) (t : Fin cfg0.N) : (dat0 V c).after 5 t
    = out0_5 (iblk0 V c 0 t) (iblk0 V c 1 t) (iblk0 V c 2 t) (iblk0 V c 3 t) := by dsimp only [dat0]
theorem after0_6 (c : Dev nD) (t : Fin cfg0.N) : (dat0 V c).after 6 t
    = out0_6 (iblk0 V c 0 t) (iblk0 V c 1 t) (iblk0 V c 2 t) (iblk0 V c 3 t) := by dsimp only [dat0]

/-! # The second region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the second body leaves in its output buffer, from the five blocks it loads: one store over the whole buffer. -/
def out1_5 (q : Vec F S256x1024 .bf16) (k v : Vec F S2048x1024 .bf16) (wo : Vec F S1024x1024 .bf16) (bo : Vec F S1x1024 .f32) :
    Vec F S256x1024 .f32 :=
  View.canon [⟨rX, stO (View.ld q rX) (View.ld k rk) (View.ld v rk) (View.ld wo rw) (View.ld bo r1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Regions

/-! # The buffer contents at each boundary of the run -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered where the first is left). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host reshape that follows the second region: the contents the program ends with. -/
abbrev W4 : Dev nD → Valuation τ sig (Elt F) := fun c => StableHlo.after hostOps2 (W3 m ρ c)

/-! ### What no item writes ends as launched; what a region writes ends as its pipeline leaves it -/

/-- A buffer that no host operation writes and that is no window's array of either region holds its launch contents
    at the end. -/
theorem W4_of (c : Dev nD) (r : Ref sig .tc) (h3 : r ∉ hostOps2_W) (h2 : ∀ w, Pipeline.arrRef spec1 w ≠ r)
    (h1 : ∀ w, Pipeline.arrRef spec0 w ≠ r) (h0 : r ∉ hostOps0_W) :
    W4 m ρ c (Proc.devRef .tc r) = m ((c : Thread nD τ).loc r) :=
  calc W4 m ρ c (Proc.devRef .tc r)
    _ = W3 m ρ c (Proc.devRef .tc r) := StableHlo.after_of_writes_sub hostOps2 _ hostOps2_writes h3
    _ = W2 m ρ c (Proc.devRef .tc r) := W3_of_ne m ρ c r h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_of m ρ c main_arg0 (by decide) (by decide) (by decide) (by decide)
theorem W4_main_arg1 (c : Dev nD) : W4 m ρ c (Proc.devRef .tc main_arg1) = m ((c : Thread nD τ).loc main_arg1) :=
  W4_of m ρ c main_arg1 (by decide) (by decide) (by decide) (by decide)
theorem W4_main_arg2 (c : Dev nD) : W4 m ρ c (Proc.devRef .tc main_arg2) = m ((c : Thread nD τ).loc main_arg2) :=
  W4_of m ρ c main_arg2 (by decide) (by decide) (by decide) (by decide)
theorem W4_main_arg3 (c : Dev nD) : W4 m ρ c (Proc.devRef .tc main_arg3) = m ((c : Thread nD τ).loc main_arg3) :=
  W4_of m ρ c main_arg3 (by decide) (by decide) (by decide) (by decide)
theorem W4_main_arg4 (c : Dev nD) : W4 m ρ c (Proc.devRef .tc main_arg4) = m ((c : Thread nD τ).loc main_arg4) :=
  W4_of m ρ c main_arg4 (by decide) (by decide) (by decide) (by decide)
theorem W4_main_arg5 (c : Dev nD) : W4 m ρ c (Proc.devRef .tc main_arg5) = m ((c : Thread nD τ).loc main_arg5) :=
  W4_of m ρ c main_arg5 (by decide) (by decide) (by decide) (by decide)
theorem W4_main_arg6 (c : Dev nD) : W4 m ρ c (Proc.devRef .tc main_arg6) = m ((c : Thread nD τ).loc main_arg6) :=
  W4_of m ρ c main_arg6 (by decide) (by decide) (by decide) (by decide)
theorem W4_main_arg7 (c : Dev nD) : W4 m ρ c (Proc.devRef .tc main_arg7) = m ((c : Thread nD τ).loc main_arg7) :=
  W4_of m ρ c main_arg7 (by decide) (by decide) (by decide) (by decide)

/-- The first region's three output arrays at its exit, and the second region's output array at its exit. -/
theorem W2_main_v11_0 (c : Dev nD) : W2 m ρ c (Proc.devRef .tc main_v11_0) = (dat0 (V1 m ρ) c).arrAt 4 cfg0.N := W2_arr m ρ c 4
theorem W2_main_v11_1 (c : Dev nD) : W2 m ρ c (Proc.devRef .tc main_v11_1) = (dat0 (V1 m ρ) c).arrAt 5 cfg0.N := W2_arr m ρ c 5
theorem W2_main_v11_2 (c : Dev nD) : W2 m ρ c (Proc.devRef .tc main_v11_2) = (dat0 (V1 m ρ) c).arrAt 6 cfg0.N := W2_arr m ρ c 6
theorem W3_main_v12 (c : Dev nD) : W3 m ρ c (Proc.devRef .tc main_v12) = (dat1 (V2 m ρ) c).arrAt 5 cfg1.N := W3_arr m ρ c 5

end Cert.Kernel.Hand

end
-- ==== Proof.FrameBodyK.lean ====
/-
  The two kernel bodies run on their staging buffers: each leaves its input buffers as it found them and each output
  buffer at the closed function of the loaded blocks that the region's proof data name; hence the pipelines' body
  obligations at every grid point.
-/
import proofs.«130152_j1030792151557_2_alg».proof.Proof.FrameDefsK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))
/-! # The first region -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The first body on whole staging buffers, the inputs' at read contents and the outputs' at anything, runs to the
    continuation holding the inputs' as they were and each output's at `out0_W` of the inputs'. -/
theorem sound_kernel0 (c : Dev nD) (E : Set ℕ) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S256x1024 .bf16) (harg7 : arg7.IsWhole)
    (x0 : Vec F S256x1024 .f32) (x1 x2 : Vec F S1x1024 .f32) (x3 : Vec F S1024x3072 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX _)
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the first body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The second region -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The second body on whole staging buffers, the inputs' at read contents and the output's at anything, runs to the
    continuation holding the inputs' as they were and the output's at `out1_5` of the inputs'. -/
theorem sound_kernel1 (c : Dev nD) (E : Set ℕ) (i : grid1.Coords)
    (arg2 : Memref sig .tc .vmem S256x1024 .bf16) (harg2 : arg2.IsWhole)
    (arg3 : Memref sig .tc .vmem S2048x1024 .bf16) (harg3 : arg3.IsWhole)
    (arg4 : Memref sig .tc .vmem S2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x1024 .bf16) (x1 x2 : Vec F S2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverX _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the second body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.FrameK.lean ====
/-
  The run of the whole program: its four segments (host operations, the two kernel regions back to back, a host
  reshape) chained from the launch to the return; every final state holds every unscoped buffer at the contents folded
  through the segments, and in particular the argument arrays as launched.
-/
import proofs.«130152_j1030792151557_2_alg».proof.Proof.FrameBodyK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2` (no host operation lies
    between the regions), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: the host operations before the regions, the two regions back to back, the
    host reshape after them. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on
    the TensorCores terminates, nothing faulting, and every final state holds every unscoped buffer of every core at
    the folded contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- A weaker claim about the final states follows from a stronger one. -/
theorem run_imp {Q Q' : PUnit × MemSt nD τ sig (Elt F) → Prop} (h : ∀ r, Q r → Q' r) :
    θ_run defs (onTc (τ := τ) (main (F := F))) ⟨m, fun _ => 0, ρ⟩ Q →
      θ_run defs (onTc (τ := τ) (main (F := F))) ⟨m, fun _ => 0, ρ⟩ Q' := fun hq => by
  have h' := OrdCont.mono (θ_run defs (onTc (τ := τ) (main (F := F))) ⟨m, fun _ => 0, ρ⟩) (Q := Q) (Q' := Q') h
  exact h' hq

/-- THE FRAME: every weakly fair execution terminates and every final state has the eight argument arrays as
    launched: each argument's buffer read off the last contents, which no item of the run changes there. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_imp m ρ (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.TermsKI.lean ====
/-
  What the two kernel bodies store, as functions of what they load.

  The first body loads a block of 256 rows of x, the scale γ, the shift β and the 1024 × 3072 weight matrix, and stores
  three 256 × 1024 blocks: the columns 0–1023 of the product (times 1/8), the columns 1024–2047 and the columns
  2048–3071. The second body loads 256 query rows, all 2048 key rows and value rows of the batch entry, the output
  weights and the bias, computes the sixteen heads' outputs, puts them side by side and stores that block's product with
  the output weights plus the bias.
-/
import proofs.«130152_j1030792151557_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The first body's three stored blocks. -/
def stQ (x : Vec F S256x1024 .f32) (g be : Vec F S1x1024 .f32) (w : Vec F S1024x3072 .bf16) : FVec F S256x1024 .bf16 :=
  k0_pay4 x g be w
def stK (x : Vec F S256x1024 .f32) (g be : Vec F S1x1024 .f32) (w : Vec F S1024x3072 .bf16) : FVec F S256x1024 .bf16 :=
  k0_pay5 x g be w
def stV (x : Vec F S256x1024 .f32) (g be : Vec F S1x1024 .f32) (w : Vec F S1024x3072 .bf16) : FVec F S256x1024 .bf16 :=
  k0_pay1 (k0_pay3 x g be w)

/-- The sixteen heads' outputs of the second body, in order. -/
def heads (q : Vec F S256x1024 .bf16) (k v : Vec F S2048x1024 .bf16) : Fin 16 → FVec F S256x64 .f32 :=
  ![k1_pay6 q k v, k1_pay7 q k v,
    k1_pay11 (k1_pay8 v) (k1_pay9 q k) (k1_pay10 q k),
    k1_pay12 (k1_pay3 q) (k1_pay4 k) (k1_pay5 v), k1_pay13 (k1_pay3 q) (k1_pay4 k) (k1_pay5 v),
    k1_pay16 (k1_pay14 (k1_pay5 v)) (k1_pay15 (k1_pay3 q) (k1_pay4 k)),
    k1_pay17 (k1_pay3 q) (k1_pay4 k) (k1_pay5 v), k1_pay18 (k1_pay3 q) (k1_pay4 k) (k1_pay5 v),
    k1_pay22 (k1_pay19 (k1_pay5 v)) (k1_pay20 (k1_pay3 q) (k1_pay4 k)) (k1_pay21 (k1_pay3 q) (k1_pay4 k)),
    k1_pay23 (k1_pay3 q) (k1_pay4 k) (k1_pay5 v), k1_pay24 (k1_pay3 q) (k1_pay4 k) (k1_pay5 v),
    k1_pay27 (k1_pay25 (k1_pay5 v)) (k1_pay26 (k1_pay3 q) (k1_pay4 k)),
    k1_pay28 (k1_pay3 q) (k1_pay4 k) (k1_pay5 v), k1_pay29 (k1_pay3 q) (k1_pay4 k) (k1_pay5 v),
    k1_pay30 (k1_pay3 q) (k1_pay4 k) (k1_pay5 v),
    k1_pay1 (k1_pay4 k) (k1_pay5 v) (k1_pay31 (k1_pay3 q))]

/-- The heads side by side. -/
def headsCat (q : Vec F S256x1024 .bf16) (k v : Vec F S2048x1024 .bf16) : FVec F S256x1024 .f32 :=
  concatenate S256x1024 1 [⟨S256x64, heads q k v 0⟩, ⟨S256x64, heads q k v 1⟩, ⟨S256x64, heads q k v 2⟩, ⟨S256x64, heads q k v 3⟩,
    ⟨S256x64, heads q k v 4⟩, ⟨S256x64, heads q k v 5⟩, ⟨S256x64, heads q k v 6⟩, ⟨S256x64, heads q k v 7⟩,
    ⟨S256x64, heads q k v 8⟩, ⟨S256x64, heads q k v 9⟩, ⟨S256x64, heads q k v 10⟩, ⟨S256x64, heads q k v 11⟩,
    ⟨S256x64, heads q k v 12⟩, ⟨S256x64, heads q k v 13⟩, ⟨S256x64, heads q k v 14⟩, ⟨S256x64, heads q k v 15⟩]
    concatenates_S256x64_S256x64_S256x64_S256x64_S256x64_S256x64_S256x64_S256x64_S256x64_S256x64_S256x64_S256x64_S256x64_S256x64_S256x64_S256x64_S256x1024_d1

/-- The second body's stored block. -/
def stO (q : Vec F S256x1024 .bf16) (k v : Vec F S2048x1024 .bf16) (wo : Vec F S1024x1024 .bf16) (bo : Vec F S1x1024 .f32) :
    FVec F S256x1024 .f32 :=
  k1_pay2 (headsCat q k v) wo bo

end Cert.KernelIdeal.Hand

end
-- ==== Proof.FrameDefsKI.lean ====
/-
  The two kernel regions' proof data and the buffer contents at every boundary of the program's run.

  The program is: eleven host operations (reshapes, transposes, a concatenation and two roundings), the first kernel
  region (layer normalisation and the fused projection), the second kernel region (attention per head and the output
  projection), one host reshape. Each region's body is a closed function of the blocks it loads; what a region leaves
  in an output array is the fold of its write-backs. The contents at each boundary are folded from the launch memory.
-/
import proofs.«130152_j1030792151557_2_alg».proof.Proof.Gen.KernelIdeal.Launch
import proofs.«130152_j1030792151557_2_alg».proof.Proof.Gen.KernelIdeal.Skeleton
import proofs.«130152_j1030792151557_2_alg».proof.Proof.Gen.KernelIdeal.Points
import proofs.«130152_j1030792151557_2_alg».proof.Proof.Gen.KernelIdeal.Regions
import proofs.«130152_j1030792151557_2_alg».proof.Proof.TermsKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # The first region -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the bodies load and store through. -/
abbrev rX : Rect S256x1024 := Rect.unit (s := S256x1024) ![0, 0] S256x1024.size inb_S256x1024_S256x1024_0_0
abbrev r1 : Rect S1x1024 := Rect.unit (s := S1x1024) ![0, 0] S1x1024.size inb_S1x1024_S1x1024_0_0
abbrev r3 : Rect S1024x3072 := Rect.unit (s := S1024x3072) ![0, 0] S1024x3072.size inb_S1024x3072_S1024x3072_0_0
abbrev rk : Rect S2048x1024 := Rect.unit (s := S2048x1024) ![0, 0] S2048x1024.size inb_S2048x1024_S2048x1024_0_0
abbrev rw : Rect S1024x1024 := Rect.unit (s := S1024x1024) ![0, 0] S1024x1024.size inb_S1024x1024_S1024x1024_0_0

/-- What the first body leaves in each of its three output buffers, from the four blocks it loads: one store each,
    over the whole buffer. -/
def out0_4 (x : Vec F S256x1024 .f32) (g be : Vec F S1x1024 .f32) (w : Vec F S1024x3072 .bf16) : Vec F S256x1024 .bf16 :=
  View.canon [⟨rX, stQ (View.ld x rX) (View.ld g r1) (View.ld be r1) (View.ld w r3)⟩]
def out0_5 (x : Vec F S256x1024 .f32) (g be : Vec F S1x1024 .f32) (w : Vec F S1024x3072 .bf16) : Vec F S256x1024 .bf16 :=
  View.canon [⟨rX, stK (View.ld x rX) (View.ld g r1) (View.ld be r1) (View.ld w r3)⟩]
def out0_6 (x : Vec F S256x1024 .f32) (g be : Vec F S1x1024 .f32) (w : Vec F S1024x3072 .bf16) : Vec F S256x1024 .bf16 :=
  View.canon [⟨rX, stV (View.ld x rX) (View.ld g r1) (View.ld be r1) (View.ld w r3)⟩]

/-- A single whole-buffer store covers the buffer. -/
theorem coverX {e : EltTy} (p0 : rX.shape.Idx → Elt F e) (y : S256x1024.Idx) :
    ∃ pc ∈ ([⟨rX, p0⟩] : List (View.Piece (Elt F) S256x1024 e)), y ∈ pc.1.set :=
  View.cover_of_tiled [⟨rX, p0⟩] S256x1024.size (by rfl) y

/-- The proof data of the first region on core `c`: the arrays as the region finds them; after the body at point
    `t` each input's buffer at its block and each output's at `out0_W` of the input blocks; the untouched rest as
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t
    = out0_4 (iblk0 V c 0 t) (iblk0 V c 1 t) (iblk0 V c 2 t) (iblk0 V c 3 t) := by dsimp only [dat0]
theorem after0_5 (c : Dev nD) (t : Fin cfg0.N) : (dat0 V c).after 5 t
    = out0_5 (iblk0 V c 0 t) (iblk0 V c 1 t) (iblk0 V c 2 t) (iblk0 V c 3 t) := by dsimp only [dat0]
theorem after0_6 (c : Dev nD) (t : Fin cfg0.N) : (dat0 V c).after 6 t
    = out0_6 (iblk0 V c 0 t) (iblk0 V c 1 t) (iblk0 V c 2 t) (iblk0 V c 3 t) := by dsimp only [dat0]

/-! # The second region -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the second body leaves in its output buffer, from the five blocks it loads: one store over the whole buffer. -/
def out1_5 (q : Vec F S256x1024 .bf16) (k v : Vec F S2048x1024 .bf16) (wo : Vec F S1024x1024 .bf16) (bo : Vec F S1x1024 .f32) :
    Vec F S256x1024 .f32 :=
  View.canon [⟨rX, stO (View.ld q rX) (View.ld k rk) (View.ld v rk) (View.ld wo rw) (View.ld bo r1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Regions

/-! # The buffer contents at each boundary of the run -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (it is entered where the first is left). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host reshape that follows the second region: the contents the program ends with. -/
abbrev W4 : Dev nD → Valuation τ sig (Elt F) := fun c => StableHlo.after hostOps2 (W3 m ρ c)

/-! ### What no item writes ends as launched; what a region writes ends as its pipeline leaves it -/

/-- A buffer that no host operation writes and that is no window's array of either region holds its launch contents
    at the end. -/
theorem W4_of (c : Dev nD) (r : Ref sig .tc) (h3 : r ∉ hostOps2_W) (h2 : ∀ w, Pipeline.arrRef spec1 w ≠ r)
    (h1 : ∀ w, Pipeline.arrRef spec0 w ≠ r) (h0 : r ∉ hostOps0_W) :
    W4 m ρ c (Proc.devRef .tc r) = m ((c : Thread nD τ).loc r) :=
  calc W4 m ρ c (Proc.devRef .tc r)
    _ = W3 m ρ c (Proc.devRef .tc r) := StableHlo.after_of_writes_sub hostOps2 _ hostOps2_writes h3
    _ = W2 m ρ c (Proc.devRef .tc r) := W3_of_ne m ρ c r h2
    _ = W1 m ρ c (Proc.devRef .tc r) := W2_of_ne m ρ c r h1
    _ = W0 m ρ c (Proc.devRef .tc r) := StableHlo.after_of_writes_sub hostOps0 _ hostOps0_writes h0
    _ = m ((c : Thread nD τ).loc r) := rfl

theorem W4_main_arg0 (c : Dev nD) : W4 m ρ c (Proc.devRef .tc main_arg0) = m ((c : Thread nD τ).loc main_arg0) :=
  W4_of m ρ c main_arg0 (by decide) (by decide) (by decide) (by decide)
theorem W4_main_arg1 (c : Dev nD) : W4 m ρ c (Proc.devRef .tc main_arg1) = m ((c : Thread nD τ).loc main_arg1) :=
  W4_of m ρ c main_arg1 (by decide) (by decide) (by decide) (by decide)
theorem W4_main_arg2 (c : Dev nD) : W4 m ρ c (Proc.devRef .tc main_arg2) = m ((c : Thread nD τ).loc main_arg2) :=
  W4_of m ρ c main_arg2 (by decide) (by decide) (by decide) (by decide)
theorem W4_main_arg3 (c : Dev nD) : W4 m ρ c (Proc.devRef .tc main_arg3) = m ((c : Thread nD τ).loc main_arg3) :=
  W4_of m ρ c main_arg3 (by decide) (by decide) (by decide) (by decide)
theorem W4_main_arg4 (c : Dev nD) : W4 m ρ c (Proc.devRef .tc main_arg4) = m ((c : Thread nD τ).loc main_arg4) :=
  W4_of m ρ c main_arg4 (by decide) (by decide) (by decide) (by decide)
theorem W4_main_arg5 (c : Dev nD) : W4 m ρ c (Proc.devRef .tc main_arg5) = m ((c : Thread nD τ).loc main_arg5) :=
  W4_of m ρ c main_arg5 (by decide) (by decide) (by decide) (by decide)
theorem W4_main_arg6 (c : Dev nD) : W4 m ρ c (Proc.devRef .tc main_arg6) = m ((c : Thread nD τ).loc main_arg6) :=
  W4_of m ρ c main_arg6 (by decide) (by decide) (by decide) (by decide)
theorem W4_main_arg7 (c : Dev nD) : W4 m ρ c (Proc.devRef .tc main_arg7) = m ((c : Thread nD τ).loc main_arg7) :=
  W4_of m ρ c main_arg7 (by decide) (by decide) (by decide) (by decide)

/-- The first region's three output arrays at its exit, and the second region's output array at its exit. -/
theorem W2_main_v11_0 (c : Dev nD) : W2 m ρ c (Proc.devRef .tc main_v11_0) = (dat0 (V1 m ρ) c).arrAt 4 cfg0.N := W2_arr m ρ c 4
theorem W2_main_v11_1 (c : Dev nD) : W2 m ρ c (Proc.devRef .tc main_v11_1) = (dat0 (V1 m ρ) c).arrAt 5 cfg0.N := W2_arr m ρ c 5
theorem W2_main_v11_2 (c : Dev nD) : W2 m ρ c (Proc.devRef .tc main_v11_2) = (dat0 (V1 m ρ) c).arrAt 6 cfg0.N := W2_arr m ρ c 6
theorem W3_main_v12 (c : Dev nD) : W3 m ρ c (Proc.devRef .tc main_v12) = (dat1 (V2 m ρ) c).arrAt 5 cfg1.N := W3_arr m ρ c 5

end Cert.KernelIdeal.Hand

end
-- ==== Proof.FrameBodyKI.lean ====
/-
  The two kernel bodies run on their staging buffers: each leaves its input buffers as it found them and each output
  buffer at the closed function of the loaded blocks that the region's proof data name; hence the pipelines' body
  obligations at every grid point.
-/
import proofs.«130152_j1030792151557_2_alg».proof.Proof.FrameDefsKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))
/-! # The first region -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The first body on whole staging buffers, the inputs' at read contents and the outputs' at anything, runs to the
    continuation holding the inputs' as they were and each output's at `out0_W` of the inputs'. -/
theorem sound_kernel0 (c : Dev nD) (E : Set ℕ) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1024x3072 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S256x1024 .bf16) (harg7 : arg7.IsWhole)
    (x0 : Vec F S256x1024 .f32) (x1 x2 : Vec F S1x1024 .f32) (x3 : Vec F S1024x3072 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)
            ∗ owns (c : Thread nD τ) arg6 fullShare (out0_5 x0 x1 x2 x3)
            ∗ owns (c : Thread nD τ) arg7 fullShare (out0_6 x0 x1 x2 x3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverX _)
  isplitl [H5]
  · iexists _; isplitr
    swap; · iexact H5
    ipureintro
    exact View.read_writes_eq_canon _ _ _ (coverX _)
  iexists _; isplitr
  swap; · iexact H6
  ipureintro
  exact View.read_writes_eq_canon _ _ _ (coverX _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the first body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # The second region -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The second body on whole staging buffers, the inputs' at read contents and the output's at anything, runs to the
    continuation holding the inputs' as they were and the output's at `out1_5` of the inputs'. -/
theorem sound_kernel1 (c : Dev nD) (E : Set ℕ) (i : grid1.Coords)
    (arg2 : Memref sig .tc .vmem S256x1024 .bf16) (harg2 : arg2.IsWhole)
    (arg3 : Memref sig .tc .vmem S2048x1024 .bf16) (harg3 : arg3.IsWhole)
    (arg4 : Memref sig .tc .vmem S2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S256x1024 .f32) (harg7 : arg7.IsWhole)
    (x0 : Vec F S256x1024 .bf16) (x1 x2 : Vec F S2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverX _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the second body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.FrameKI.lean ====
/-
  The run of the whole program: its four segments (host operations, the two kernel regions back to back, a host
  reshape) chained from the launch to the return; every final state holds every unscoped buffer at the contents folded
  through the segments, and in particular the argument arrays as launched.
-/
import proofs.«130152_j1030792151557_2_alg».proof.Proof.FrameBodyKI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2` (no host operation lies
    between the regions), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: the host operations before the regions, the two regions back to back, the
    host reshape after them. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on
    the TensorCores terminates, nothing faulting, and every final state holds every unscoped buffer of every core at
    the folded contents `W4`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- A weaker claim about the final states follows from a stronger one. -/
theorem run_imp {Q Q' : PUnit × MemSt nD τ sig (Elt F) → Prop} (h : ∀ r, Q r → Q' r) :
    θ_run defs (onTc (τ := τ) (main (F := F))) ⟨m, fun _ => 0, ρ⟩ Q →
      θ_run defs (onTc (τ := τ) (main (F := F))) ⟨m, fun _ => 0, ρ⟩ Q' := fun hq => by
  have h' := OrdCont.mono (θ_run defs (onTc (τ := τ) (main (F := F))) ⟨m, fun _ => 0, ρ⟩) (Q := Q) (Q' := Q') h
  exact h' hq

/-- THE FRAME: every weakly fair execution terminates and every final state has the eight argument arrays as
    launched: each argument's buffer read off the last contents, which no item of the run changes there. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_imp m ρ (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.RefFrame.lean ====
/-
  The reference program's frame: every weakly fair execution of the reference terminates with its eight arguments
  unchanged. This is the second half of what its run states (the first half names the result).
-/
import proofs.«130152_j1030792151557_2_alg».proof.Defs
import proofs.«130152_j1030792151557_2_alg».proof.Proof.Gen.ReferenceIdeal.Run
import proofs.«130152_j1030792151557_2_alg».proof.Proof.Gen.Pre_finite_inputs

noncomputable section

namespace Cert.ReferenceIdeal.RefValue

open Idealize.ShloMosaic Idealize.SL.Sem

theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.Spec.lean ====
/-
  The function both programs compute, index by index over the extended reals, written row by row.

  A row xr of 1024 entries is normalised: its mean μ = (Σₖ xr k) / 1024 is subtracted, the variance
  σ² = (Σₖ (xr k − μ)²) / 1024 gives the factor 1/√(σ² + ε), and the row is scaled by γ and shifted by β. A projection
  contracts the normalised row with a row of a weight matrix (the query is also multiplied by 1/8). For head h (the
  64 columns h·64 … h·64+63) the score of a query row against key row n' is the inner product over those columns,
  the weights are exp(score − row maximum) divided by their row sum, and the head's output is the weighted sum of the
  value rows. The heads' outputs side by side are contracted with a row of the output weights and the bias added.
-/
import Idealize.ShloMosaic.PureOps.Ideal
import Idealize.ShloMosaic.Lib.ValueIdx

noncomputable section

namespace Cert.Spec

open Idealize.ShloMosaic Idealize.ShloMosaic.ValueIdx

/-- A row of 1024 entries, and a matrix given row by row. -/
abbrev Row : Type := Fin 1024 → EReal

/-- 1024, ε, 1/8 and −∞ as the programs spell them. -/
def c1024 : EReal := Ideal.ofBits .f32 0x44800000#32
def ceps : EReal := Ideal.ofBits .f32 0x3727C5AC#32
def cscale : EReal := Ideal.ofBits .f32 0x3E000000#32
def cninf : EReal := Ideal.ofBits .f32 0xFF800000#32

/-- Column h·64 + d of the 1024 columns: column d of head h. -/
def hd (h : Fin 16) (d : Fin 64) : Fin 1024 := ⟨h.val * 64 + d.val, by omega⟩

/-! ## The normalised row and its projections -/

/-- The row mean. -/
def rowMu (xr : Row) : EReal := Ideal.div (∑ k : Fin 1024, xr k) c1024
/-- The centred entry. -/
def rowC (xr : Row) (k : Fin 1024) : EReal := xr k - rowMu xr
/-- The row variance. -/
def rowVar (xr : Row) : EReal := Ideal.div (∑ k : Fin 1024, rowC xr k * rowC xr k) c1024
/-- The normalised, scaled and shifted entry. -/
def rowLn (xr g be : Row) (k : Fin 1024) : EReal :=
  rowC xr k * Ideal.rsqrt (rowVar xr + ceps) * g k + be k
/-- The normalised row against a weight row w. -/
def rowProj (xr g be w : Row) : EReal := ∑ k : Fin 1024, rowLn xr g be k * w k

/-! ## One query row against all keys and values -/

/-- The score of the query row against key row n' in head h. -/
def headScore (qr : Row) (K : Fin 2048 → Row) (h : Fin 16) (n' : Fin 2048) : EReal :=
  ∑ d : Fin 64, qr (hd h d) * K n' (hd h d)
/-- The maximum of the scores (from −∞). -/
def headMax (qr : Row) (K : Fin 2048 → Row) (h : Fin 16) : EReal :=
  (Finset.univ : Finset (Fin 2048)).fold max cninf (fun n' => headScore qr K h n')
/-- The unnormalised weight. -/
def headExp (qr : Row) (K : Fin 2048 → Row) (h : Fin 16) (n' : Fin 2048) : EReal :=
  Ideal.exp (headScore qr K h n' - headMax qr K h)
/-- The sum of the weights. -/
def headSum (qr : Row) (K : Fin 2048 → Row) (h : Fin 16) : EReal := ∑ n' : Fin 2048, headExp qr K h n'
/-- The normalised weight. -/
def headW (qr : Row) (K : Fin 2048 → Row) (h : Fin 16) (n' : Fin 2048) : EReal :=
  Ideal.div (headExp qr K h n') (headSum qr K h)
/-- Head h's output at column d. -/
def headOut (qr : Row) (K V : Fin 2048 → Row) (h : Fin 16) (d : Fin 64) : EReal :=
  ∑ n' : Fin 2048, headW qr K h n' * V n' (hd h d)
/-- The heads side by side: column c belongs to head c / 64, at its column c % 64. -/
def attnRow (qr : Row) (K V : Fin 2048 → Row) (c : Fin 1024) : EReal :=
  headOut qr K V ⟨c.val / 64, by omega⟩ ⟨c.val % 64, by omega⟩
/-- The output row at column j: the heads' outputs against row j of the output weights, plus the bias. -/
def outRow (qr : Row) (K V : Fin 2048 → Row) (wo : Fin 1024 → Row) (bo : Row) (j : Fin 1024) : EReal :=
  (∑ c : Fin 1024, attnRow qr K V c * wo j c) + bo j

/-! ## The whole result -/

abbrev A3 : Type := (⟨3, ![2, 2048, 1024]⟩ : Shape).Idx → EReal
abbrev A2 : Type := (⟨2, ![1024, 1024]⟩ : Shape).Idx → EReal
abbrev A1 : Type := (⟨1, ![1024]⟩ : Shape).Idx → EReal

variable (x : A3) (g be : A1) (Wq Wk Wv Wo : A2) (bo : A1)

/-- Row n of batch b. -/
def xrow (b : Fin 2) (n : Fin 2048) : Row := fun k => x (ix3 b n k)
/-- A vector as a row; row j of a matrix. -/
def vrow (v : A1) : Row := fun k => v (ix1 k)
def mrow (W : A2) (j : Fin 1024) : Row := fun k => W (ix2 j k)
/-- The query (scaled by 1/8), key and value rows of batch b, row n. -/
def qrow (b : Fin 2) (n : Fin 2048) : Row := fun j => rowProj (xrow x b n) (vrow g) (vrow be) (mrow Wq j) * cscale
def krow (b : Fin 2) (n : Fin 2048) : Row := fun j => rowProj (xrow x b n) (vrow g) (vrow be) (mrow Wk j)
def vrow' (b : Fin 2) (n : Fin 2048) : Row := fun j => rowProj (xrow x b n) (vrow g) (vrow be) (mrow Wv j)
/-- The result. -/
def G : A3 := fun i =>
  outRow (qrow x g be Wq (i 0) (i 1)) (krow x g be Wk (i 0)) (vrow' x g be Wv (i 0)) (mrow Wo) (vrow bo) (i 2)

end Cert.Spec

end
-- ==== Proof.RefA.lean ====
/-
  The reference program, first part: the normalised rows and the three projections, split into heads.

  Each stage of the reference is read at an index given by its coordinates and identified with the specification's
  function of the same name: the row mean, the centred entry, the row variance, the normalised entry, a projection of
  the normalised row against a weight row, and the entry (b, h, n, d) of a projection after it is split into 16 heads of
  64 columns and the head axis is moved in front of the row axis (that is entry (b, n, h·64 + d) before the split).
-/
import proofs.«130152_j1030792151557_2_alg».proof.Proof.Gen.ReferenceIdeal.Read
import proofs.«130152_j1030792151557_2_alg».proof.Proof.Spec

noncomputable section

namespace Cert.ReferenceIdeal.RefValue

open Cert.ReferenceIdeal Cert.ReferenceIdeal.Read Idealize.ShloMosaic Idealize.ShloMosaic.ValueIdx

/-- Two indices of a rank-2, rank-3 or rank-4 shape are equal when their coordinates are. -/
macro "idx2" : tactic => `(tactic| exact funext fun a => Fin.ext (by match a with | ⟨0, _⟩ => rfl | ⟨1, _⟩ => rfl))
macro "idx3" : tactic => `(tactic| exact funext fun a => Fin.ext (by match a with | ⟨0, _⟩ => rfl | ⟨1, _⟩ => rfl | ⟨2, _⟩ => rfl))
macro "idx4" : tactic =>
  `(tactic| exact funext fun a => Fin.ext (by match a with | ⟨0, _⟩ => rfl | ⟨1, _⟩ => rfl | ⟨2, _⟩ => rfl | ⟨3, _⟩ => rfl))

variable (a0 : (⟨S2x2048x1024, .f32⟩ : BufTy).Contents (Elt Ideal)) (a1 a2 : (⟨S1024, .f32⟩ : BufTy).Contents (Elt Ideal))

/-- The row sum of x. -/
theorem v0_at (b : Fin 2) (n : Fin 2048) :
    val_main_v0 (F := Ideal) a0 (ix2 b n) = ∑ k : Fin 1024, a0 (ix3 b n k) := by
  have e : ∀ k : Fin 1024, idx_main_v0 (ix2 b n) k = ix3 b n k := fun k => by idx3
  rw [val_main_v0_apply, val_main_cst_apply, Ideal.ofBits_def, Ideal.ofBits_zero_f32, zero_add]
  exact Finset.sum_congr rfl fun k _ => congrArg a0 (e k)

/-- The row mean. -/
theorem v3_at (b : Fin 2) (n : Fin 2048) (z : Fin 1) :
    val_main_v3 (F := Ideal) a0 (ix3 b n z) = Spec.rowMu (Spec.xrow a0 b n) := by
  have e1 : idx_main_v1 (ix3 b n z) = ix2 b n := by idx2
  rw [val_main_v3_apply, val_main_v1_apply, val_main_v2_apply, val_main_cst_0_apply, e1, v0_at, Ideal.hostDivf_def, Ideal.ofBits_def]
  rfl

/-- The centred entry (computed twice by the program). -/
theorem v5_at (b : Fin 2) (n : Fin 2048) (k : Fin 1024) :
    val_main_v5 (F := Ideal) a0 (ix3 b n k) = Spec.rowC (Spec.xrow a0 b n) k := by
  have e4 : idx_main_v4 (ix3 b n k) = ix3 b n (0 : Fin 1) := by idx3
  rw [val_main_v5_apply, val_main_v4_apply, e4, v3_at, Ideal.subf_def]
  rfl
theorem v12_at (b : Fin 2) (n : Fin 2048) (k : Fin 1024) :
    val_main_v12 (F := Ideal) a0 (ix3 b n k) = Spec.rowC (Spec.xrow a0 b n) k := by
  have e4 : idx_main_v11 (ix3 b n k) = ix3 b n (0 : Fin 1) := by idx3
  rw [val_main_v12_apply, val_main_v11_apply, e4, v3_at, Ideal.subf_def]
  rfl

/-- The row variance. -/
theorem v10_at (b : Fin 2) (n : Fin 2048) (z : Fin 1) :
    val_main_v10 (F := Ideal) a0 (ix3 b n z) = Spec.rowVar (Spec.xrow a0 b n) := by
  have e8 : idx_main_v8 (ix3 b n z) = ix2 b n := by idx2
  have e7 : ∀ k : Fin 1024, idx_main_v7 (ix2 b n) k = ix3 b n k := fun k => by idx3
  rw [val_main_v10_apply, val_main_v8_apply, val_main_v9_apply, val_main_cst_2_apply, e8, val_main_v7_apply, val_main_cst_1_apply,
    Ideal.ofBits_def, Ideal.ofBits_zero_f32, zero_add, Ideal.hostDivf_def, Ideal.ofBits_def]
  refine congrArg (fun s => Ideal.div s Spec.c1024) (Finset.sum_congr rfl fun k _ => ?_)
  rw [e7 k, val_main_v6_apply, v5_at, Ideal.mulf_def]

/-- The normalised, scaled and shifted entry. -/
theorem v23_at (b : Fin 2) (n : Fin 2048) (k : Fin 1024) :
    val_main_v23 (F := Ideal) a0 a1 a2 (ix3 b n k) = Spec.rowLn (Spec.xrow a0 b n) (Spec.vrow a1) (Spec.vrow a2) k := by
  have e16 : idx_main_v16 (ix3 b n k) = ix3 b n (0 : Fin 1) := by idx3
  have e19 : idx_main_v18 (idx_main_v19 (ix3 b n k)) = ix1 k := funext fun a => Fin.ext (by match a with | ⟨0, _⟩ => rfl)
  have e22 : idx_main_v21 (idx_main_v22 (ix3 b n k)) = ix1 k := funext fun a => Fin.ext (by match a with | ⟨0, _⟩ => rfl)
  rw [val_main_v23_apply, val_main_v20_apply, val_main_v17_apply, v12_at, val_main_v16_apply, e16, val_main_v15_apply,
    val_main_v14_apply, v10_at, val_main_v13_apply, val_main_cst_3_apply, val_main_v19_apply, val_main_v18_apply, e19,
    val_main_v22_apply, val_main_v21_apply, e22, Ideal.addf_def, Ideal.mulf_def, Ideal.mulf_def, Ideal.addf_def,
    Ideal.hostUnary_rsqrt_def, Ideal.ofBits_def]
  rfl

/-! ## The three projections -/

section proj
variable (W : (⟨S1024x1024, .f32⟩ : BufTy).Contents (Elt Ideal))

/-- A projection at (b, n, j): the normalised row n of batch b against row j of the weights. -/
theorem v24_at (b : Fin 2) (n : Fin 2048) (j : Fin 1024) :
    val_main_v24 (F := Ideal) a0 a1 a2 W (ix3 b n j)
      = Spec.rowProj (Spec.xrow a0 b n) (Spec.vrow a1) (Spec.vrow a2) (Spec.mrow W j) := by
  have el : ∀ k : Fin 1024, lidx_main_v24 (ix3 b n j) k = ix3 b n k := fun k => by idx3
  have er : ∀ k : Fin 1024, ridx_main_v24 (ix3 b n j) k = ix2 j k := fun k => by idx2
  rw [val_main_v24_apply]
  refine Finset.sum_congr rfl fun k _ => ?_
  rw [el k, er k, v23_at]
  rfl
theorem v29_at (b : Fin 2) (n : Fin 2048) (j : Fin 1024) :
    val_main_v29 (F := Ideal) a0 a1 a2 W (ix3 b n j)
      = Spec.rowProj (Spec.xrow a0 b n) (Spec.vrow a1) (Spec.vrow a2) (Spec.mrow W j) := by
  have el : ∀ k : Fin 1024, lidx_main_v29 (ix3 b n j) k = ix3 b n k := fun k => by idx3
  have er : ∀ k : Fin 1024, ridx_main_v29 (ix3 b n j) k = ix2 j k := fun k => by idx2
  rw [val_main_v29_apply]
  refine Finset.sum_congr rfl fun k _ => ?_
  rw [el k, er k, v23_at]
  rfl
theorem v32_at (b : Fin 2) (n : Fin 2048) (j : Fin 1024) :
    val_main_v32 (F := Ideal) a0 a1 a2 W (ix3 b n j)
      = Spec.rowProj (Spec.xrow a0 b n) (Spec.vrow a1) (Spec.vrow a2) (Spec.mrow W j) := by
  have el : ∀ k : Fin 1024, lidx_main_v32 (ix3 b n j) k = ix3 b n k := fun k => by idx3
  have er : ∀ k : Fin 1024, ridx_main_v32 (ix3 b n j) k = ix2 j k := fun k => by idx2
  rw [val_main_v32_apply]
  refine Finset.sum_congr rfl fun k _ => ?_
  rw [el k, er k, v23_at]
  rfl

/-! ## Splitting the 1024 columns into 16 heads of 64 -/

/-- Entry (b, h, n, d) of the head-split, transposed array is entry (b, n, h·64 + d) of the projection: the flat position
    ((b·2048 + n)·16 + h)·64 + d is (b·2048 + n)·1024 + (h·64 + d). -/
theorem split_idx (b : Fin 2) (h : Fin 16) (n : Fin 2048) (d : Fin 64) :
    idx_main_v25 (idx_main_v26 (ix4 b h n d)) = ix3 b n (Spec.hd h d) := by
  funext a; apply Fin.ext
  have hb := b.isLt; have hh := h.isLt; have hn := n.isLt; have hd := d.isLt
  match a with
  | ⟨0, _⟩ => show (((b.val * 2048 + n.val) * 16 + h.val) * 64 + d.val) / 2097152 = b.val; omega
  | ⟨1, _⟩ => show (((b.val * 2048 + n.val) * 16 + h.val) * 64 + d.val) / 1024 % 2048 = n.val; omega
  | ⟨2, _⟩ => show (((b.val * 2048 + n.val) * 16 + h.val) * 64 + d.val) % 1024 = h.val * 64 + d.val; omega

/-- The query entry of head h at (n, d), scaled by 1/8. -/
theorem v28_at (b : Fin 2) (h : Fin 16) (n : Fin 2048) (d : Fin 64) :
    val_main_v28 (F := Ideal) a0 a1 a2 W (ix4 b h n d) = Spec.qrow a0 a1 a2 W b n (Spec.hd h d) := by
  rw [val_main_v28_apply, val_main_v26_apply, val_main_v25_apply, split_idx, v24_at, val_main_v27_apply,
    val_main_cst_4_apply, Ideal.mulf_def, Ideal.ofBits_def]
  rfl
/-- The key entry of head h at (n, d). -/
theorem v31_at (b : Fin 2) (h : Fin 16) (n : Fin 2048) (d : Fin 64) :
    val_main_v31 (F := Ideal) a0 a1 a2 W (ix4 b h n d) = Spec.krow a0 a1 a2 W b n (Spec.hd h d) := by
  rw [val_main_v31_apply, val_main_v30_apply, show idx_main_v30 (idx_main_v31 (ix4 b h n d)) = ix3 b n (Spec.hd h d) from split_idx b h n d, v29_at]
  rfl
/-- The value entry of head h at (n, d). -/
theorem v34_at (b : Fin 2) (h : Fin 16) (n : Fin 2048) (d : Fin 64) :
    val_main_v34 (F := Ideal) a0 a1 a2 W (ix4 b h n d) = Spec.vrow' a0 a1 a2 W b n (Spec.hd h d) := by
  rw [val_main_v34_apply, val_main_v33_apply, show idx_main_v33 (idx_main_v34 (ix4 b h n d)) = ix3 b n (Spec.hd h d) from split_idx b h n d, v32_at]
  rfl

end proj

end Cert.ReferenceIdeal.RefValue

end
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.RefB.lean ====
/-
  The reference program, second part: the attention of one query row and the heads' outputs side by side.

  A host reduction along the last of four axes is read at an index as a fold over that axis. With it each stage of the
  reference is identified, at an index given by its coordinates, with the specification's function of the same name:
  the score, the maximum of the scores from −∞ (taking the maximum with −∞ a second time changes nothing), the
  exponential of the score minus the maximum, the sum of these, their quotient, the head's output as the weighted sum of
  the value rows, and the merged array whose column c is column c % 64 of head c / 64.
-/
import proofs.«130152_j1030792151557_2_alg».proof.Proof.RefA
import proofs.«130152_j1030792151557_2_alg».proof.Proof.LibRowReduce

noncomputable section

namespace Cert.ReferenceIdeal.RefValue

open Cert.ReferenceIdeal Cert.ReferenceIdeal.Gen Cert.ReferenceIdeal.Read Idealize.ShloMosaic Idealize.ShloMosaic.ValueIdx

/-! ## A host reduction along the last of four axes -/

/-- The source index over (n, p, q) with last coordinate k is (n, p, q, k). -/
theorem lift_last4 {N A B C : ℕ} (h : (⟨4, ![N, A, B, C]⟩ : Shape).Reduces [3] ⟨3, ![N, A, B]⟩) (n : Fin N) (p : Fin A)
    (q : Fin B) (k : Fin C) : h.lift (ix3 n p q) k = ix4 n p q k := by
  funext a; apply Fin.ext
  match a with
  | ⟨0, _⟩ => rfl
  | ⟨1, _⟩ => rfl
  | ⟨2, _⟩ => rfl
  | ⟨3, _⟩ => rfl

/-- A host reduction along the last of four axes with a commutative associative body, at (n, p, q): the fold from the
    initial value over the entries (n, p, q, ·). -/
theorem hostReduce_last4 {α : Type} {N A B C : ℕ} {u : Shape} (f : α → α → α) [Std.Commutative f] [Std.Associative f]
    (x : (⟨4, ![N, A, B, C]⟩ : Shape).Idx → α) (init : u.Idx → α)
    (h' : (⟨4, ![N, A, B, C]⟩ : Shape).ReducesTo [3] ⟨3, ![N, A, B]⟩)
    (h : (⟨4, ![N, A, B, C]⟩ : Shape).Reduces [3] ⟨3, ![N, A, B]⟩) (hu : 0 < u.numel) (n : Fin N) (p : Fin A) (q : Fin B) :
    Host.reduce f x init h' hu (ix3 n p q)
      = (Finset.univ : Finset (Fin C)).fold f (init (Shape.Idx.first hu)) (fun k => x (ix4 n p q k)) := by
  refine (Host.reduce_eq_fold_single f x init h' h hu (ix3 n p q)).trans ?_
  show (Finset.univ : Finset (Fin C)).fold f (init (Shape.Idx.first hu)) (fun k => x (h.lift (ix3 n p q) k)) = _
  exact congrArg (fun g => (Finset.univ : Finset (Fin C)).fold f (init (Shape.Idx.first hu)) g)
    (funext fun k => congrArg x (lift_last4 h n p q k))

variable (a0 : (⟨S2x2048x1024, .f32⟩ : BufTy).Contents (Elt Ideal)) (a1 a2 : (⟨S1024, .f32⟩ : BufTy).Contents (Elt Ideal))
  (a3 a4 a5 : (⟨S1024x1024, .f32⟩ : BufTy).Contents (Elt Ideal))

/-! ## The attention weights of one query row -/

/-- The score of query row n against key row n' in head h. -/
theorem v35_at (b : Fin 2) (h : Fin 16) (n n' : Fin 2048) :
    val_main_v35 (F := Ideal) a0 a1 a2 a3 a4 (ix4 b h n n')
      = Spec.headScore (Spec.qrow a0 a1 a2 a3 b n) (Spec.krow a0 a1 a2 a4 b) h n' := by
  have el : ∀ d : Fin 64, lidx_main_v35 (ix4 b h n n') d = ix4 b h n d := fun d => by idx4
  have er : ∀ d : Fin 64, ridx_main_v35 (ix4 b h n n') d = ix4 b h n' d := fun d => by idx4
  rw [val_main_v35_apply, Spec.headScore]
  refine Finset.sum_congr rfl fun d _ => ?_
  rw [el d, er d, v28_at, v31_at]

/-- The maximum of the scores of query row n in head h, from −∞. -/
theorem v36_at (b : Fin 2) (h : Fin 16) (n : Fin 2048) :
    val_main_v36 (F := Ideal) a0 a1 a2 a3 a4 (ix3 b h n)
      = Spec.headMax (Spec.qrow a0 a1 a2 a3 b n) (Spec.krow a0 a1 a2 a4 b) h := by
  unfold val_main_v36
  refine (hostReduce_last4 FloatOps.maximumf _ _ _ (by decide) _ b h n).trans ?_
  rw [val_main_cst_5_apply, Ideal.ofBits_def, Spec.headMax]
  refine congrArg (fun g => (Finset.univ : Finset (Fin 2048)).fold max Spec.cninf g) (funext fun n' => ?_)
  exact v35_at a0 a1 a2 a3 a4 b h n n'

/-- Taking the maximum with −∞ once more changes nothing. -/
theorem v38_at (b : Fin 2) (h : Fin 16) (n : Fin 2048) :
    val_main_v38 (F := Ideal) a0 a1 a2 a3 a4 (ix3 b h n)
      = Spec.headMax (Spec.qrow a0 a1 a2 a3 b n) (Spec.krow a0 a1 a2 a4 b) h := by
  rw [val_main_v38_apply, val_main_v37_apply, val_main_cst_6_apply, v36_at, Ideal.maximumf_def, Ideal.ofBits_def, Spec.headMax]
  exact Cert.LibRowReduce.max_fold_max_self _ _ _

/-- The unnormalised weight. -/
theorem v42_at (b : Fin 2) (h : Fin 16) (n n' : Fin 2048) :
    val_main_v42 (F := Ideal) a0 a1 a2 a3 a4 (ix4 b h n n')
      = Spec.headExp (Spec.qrow a0 a1 a2 a3 b n) (Spec.krow a0 a1 a2 a4 b) h n' := by
  have e : idx_main_v39 (idx_main_v40 (ix4 b h n n')) = ix3 b h n := by idx3
  rw [val_main_v42_apply, val_main_v41_apply, v35_at, val_main_v40_apply, val_main_v39_apply, e, v38_at, Ideal.subf_def,
    Ideal.hostUnary_exp_def, Spec.headExp]

/-- The sum of the weights. -/
theorem v43_at (b : Fin 2) (h : Fin 16) (n : Fin 2048) :
    val_main_v43 (F := Ideal) a0 a1 a2 a3 a4 (ix3 b h n)
      = Spec.headSum (Spec.qrow a0 a1 a2 a3 b n) (Spec.krow a0 a1 a2 a4 b) h := by
  have e : ∀ n' : Fin 2048, idx_main_v43 (ix3 b h n) n' = ix4 b h n n' := fun n' => by idx4
  rw [val_main_v43_apply, val_main_cst_7_apply, Ideal.ofBits_def, Ideal.ofBits_zero_f32, zero_add, Spec.headSum]
  refine Finset.sum_congr rfl fun n' _ => ?_
  rw [e n', v42_at]

/-- The normalised weight. -/
theorem v46_at (b : Fin 2) (h : Fin 16) (n n' : Fin 2048) :
    val_main_v46 (F := Ideal) a0 a1 a2 a3 a4 (ix4 b h n n')
      = Spec.headW (Spec.qrow a0 a1 a2 a3 b n) (Spec.krow a0 a1 a2 a4 b) h n' := by
  have e : idx_main_v44 (idx_main_v45 (ix4 b h n n')) = ix3 b h n := by idx3
  rw [val_main_v46_apply, v42_at, val_main_v45_apply, val_main_v44_apply, e, v43_at, Ideal.hostDivf_def, Spec.headW]

/-! ## The heads' outputs, side by side -/

/-- Head h's output for query row n at column d. -/
theorem v47_at (b : Fin 2) (h : Fin 16) (n : Fin 2048) (d : Fin 64) :
    val_main_v47 (F := Ideal) a0 a1 a2 a3 a4 a5 (ix4 b h n d)
      = Spec.headOut (Spec.qrow a0 a1 a2 a3 b n) (Spec.krow a0 a1 a2 a4 b) (Spec.vrow' a0 a1 a2 a5 b) h d := by
  have el : ∀ n' : Fin 2048, lidx_main_v47 (ix4 b h n d) n' = ix4 b h n n' := fun n' => by idx4
  have er : ∀ n' : Fin 2048, ridx_main_v47 (ix4 b h n d) n' = ix4 b h n' d := fun n' => by idx4
  rw [val_main_v47_apply, Spec.headOut]
  refine Finset.sum_congr rfl fun n' _ => ?_
  rw [el n', er n', v46_at, v34_at]

/-- Entry (b, n, c) of the merged array is entry (b, c / 64, n, c % 64) of the heads' outputs: the flat position
    (b·2048 + n)·1024 + c is ((b·2048 + n)·16 + c / 64)·64 + c % 64. -/
theorem merge_idx (b : Fin 2) (n : Fin 2048) (c : Fin 1024) :
    idx_main_v48 (idx_main_v49 (ix3 b n c))
      = ix4 b (⟨c.val / 64, by omega⟩ : Fin 16) n (⟨c.val % 64, by omega⟩ : Fin 64) := by
  funext a; apply Fin.ext
  have hb := b.isLt; have hn := n.isLt; have hc := c.isLt
  match a with
  | ⟨0, _⟩ => show ((b.val * 2048 + n.val) * 1024 + c.val) / 2097152 = b.val; omega
  | ⟨1, _⟩ => show ((b.val * 2048 + n.val) * 1024 + c.val) / 64 % 16 = c.val / 64; omega
  | ⟨2, _⟩ => show ((b.val * 2048 + n.val) * 1024 + c.val) / 1024 % 2048 = n.val; omega
  | ⟨3, _⟩ => show ((b.val * 2048 + n.val) * 1024 + c.val) % 64 = c.val % 64; omega

/-- The heads' outputs side by side, at (b, n, c). -/
theorem v49_at (b : Fin 2) (n : Fin 2048) (c : Fin 1024) :
    val_main_v49 (F := Ideal) a0 a1 a2 a3 a4 a5 (ix3 b n c)
      = Spec.attnRow (Spec.qrow a0 a1 a2 a3 b n) (Spec.krow a0 a1 a2 a4 b) (Spec.vrow' a0 a1 a2 a5 b) c := by
  rw [val_main_v49_apply, val_main_v48_apply, merge_idx, v47_at, Spec.attnRow]

end Cert.ReferenceIdeal.RefValue

end
-- ==== Proof.RefValue.lean ====
/-
  The reference program computes the specification.

  The last stages — the merged heads' outputs contracted with row j of the output weights, plus the bias — are read at
  an index and identified with the specification's output row; hence the reference's result, as a function of its eight
  arguments, is the specification's function G.
-/
import proofs.«130152_j1030792151557_2_alg».proof.Proof.RefB

noncomputable section

namespace Cert.ReferenceIdeal.RefValue

open Cert.ReferenceIdeal Cert.ReferenceIdeal.Gen Cert.ReferenceIdeal.Read Idealize.ShloMosaic Idealize.ShloMosaic.ValueIdx

variable (a0 : (⟨S2x2048x1024, .f32⟩ : BufTy).Contents (Elt Ideal)) (a1 a2 : (⟨S1024, .f32⟩ : BufTy).Contents (Elt Ideal))
  (a3 a4 a5 a6 : (⟨S1024x1024, .f32⟩ : BufTy).Contents (Elt Ideal)) (a7 : (⟨S1024, .f32⟩ : BufTy).Contents (Elt Ideal))

/-- The result at (b, n, j): the merged heads' outputs of query row n against row j of the output weights, plus the bias. -/
theorem v53_at (b : Fin 2) (n : Fin 2048) (j : Fin 1024) :
    val_main_v53 (F := Ideal) a0 a1 a2 a3 a4 a5 a6 a7 (ix3 b n j)
      = Spec.outRow (Spec.qrow a0 a1 a2 a3 b n) (Spec.krow a0 a1 a2 a4 b) (Spec.vrow' a0 a1 a2 a5 b) (Spec.mrow a6)
          (Spec.vrow a7) j := by
  have el : ∀ c : Fin 1024, lidx_main_v50 (ix3 b n j) c = ix3 b n c := fun c => by idx3
  have er : ∀ c : Fin 1024, ridx_main_v50 (ix3 b n j) c = ix2 j c := fun c => by idx2
  have e52 : idx_main_v51 (idx_main_v52 (ix3 b n j)) = ix1 j := funext fun a => Fin.ext (by match a with | ⟨0, _⟩ => rfl)
  rw [val_main_v53_apply, val_main_v50_apply, val_main_v52_apply, val_main_v51_apply, e52, Ideal.addf_def, Spec.outRow]
  refine congrArg (· + Spec.vrow a7 j) (Finset.sum_congr rfl fun c _ => ?_)
  rw [el c, er c, v49_at]
  rfl

/-- The reference's result is the specification's function of its arguments. -/
theorem result_eq (a0 : (⟨S2x2048x1024, .f32⟩ : BufTy).Contents (Elt Ideal)) (a1 a2 : (⟨S1024, .f32⟩ : BufTy).Contents (Elt Ideal))
    (a3 a4 a5 a6 : (⟨S1024x1024, .f32⟩ : BufTy).Contents (Elt Ideal)) (a7 : (⟨S1024, .f32⟩ : BufTy).Contents (Elt Ideal)) :
    val_main_v53 (F := Ideal) a0 a1 a2 a3 a4 a5 a6 a7 = Cert.Spec.G a0 a1 a2 a3 a4 a5 a6 a7 := by
  funext i
  obtain ⟨b, n, j, rfl⟩ : ∃ (b : Fin 2) (n : Fin 2048) (j : Fin 1024), i = ix3 b n j := ⟨i 0, i 1, i 2, eq_ix3 i⟩
  exact v53_at a0 a1 a2 a3 a4 a5 a6 a7 b n j

end Cert.ReferenceIdeal.RefValue

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.AttnHead.lean ====
/-
  One attention head of the second kernel body, read at an entry.

  For a column offset o = 64 h the head's arithmetic cuts the columns o … o + 63 out of the query block, out of the key
  rows and out of the value rows; forms the scores, the inner products of a query row with the key rows over those
  columns; subtracts each row's maximum, exponentiates, divides by the row's sum; and multiplies the weights with the
  value columns. Read at entry (p, d) this is the specification's output of head h for query row p at column d: every
  step is the same sum, maximum or quotient, only written over index sets cut from the larger arrays.
-/
import proofs.«130152_j1030792151557_2_alg».proof.Proof.TermsKI
import proofs.«130152_j1030792151557_2_alg».proof.Proof.Spec
import proofs.«130152_j1030792151557_2_alg».proof.Proof.LibRowReduce
import proofs.«130152_j1030792151557_2_alg».proof.Proof.LibMatmul
import proofs.«130152_j1030792151557_2_alg».proof.Proof.LibMatmulNT
import proofs.«130152_j1030792151557_2_alg».proof.Proof.LibKeepdims
import Idealize.ShloMosaic.Lib.ValueLayout

noncomputable section

namespace Cert.KernelIdeal.AttnBlock

open Idealize.ShloMosaic Idealize.ShloMosaic.ValueIdx Cert.KernelIdeal Cert.KernelIdeal.Gen

/-! ## The two products' operand indices -/

/-- The scores' product: a 256 × 64 block against a 2048 × 64 block, both contracted along their 64 columns. -/
abbrev dS : DotDims S256x64 S2048x64 S256x2048 := dot_S256x64_S2048x64_S256x2048_1_1_0_0_n_n
/-- The weighted sum of the values: a 256 × 2048 block against a 2048 × 64 block, contracted along the 2048. -/
abbrev dV : DotDims S256x2048 S2048x64 S256x64 := dot_S256x2048_S2048x64_S256x64_1_0_0_1_n_n

theorem dS_l0 (i : S256x2048.Idx) (q : dS.contr.Idx) : (dS.lhsIdx i q (0 : Fin 2)).val = (i (0 : Fin 2)).val := by
  unfold DotDims.lhsIdx
  rw [dif_neg (show ¬(0 : Fin S256x64.rank) ∈ dS.lhsBatch by decide),
    dif_pos (show (0 : Fin S256x64.rank) ∈ dS.lhsNonContracting by decide)]
  rfl
theorem dS_l1 (i : S256x2048.Idx) (q : dS.contr.Idx) : (dS.lhsIdx i q (1 : Fin 2)).val = (q ⟨0, by decide⟩).val :=
  dS.lhsIdx_val_of_single rfl i q
theorem dS_r0 (i : S256x2048.Idx) (q : dS.contr.Idx) : (dS.rhsIdx i q (0 : Fin 2)).val = (i (1 : Fin 2)).val := by
  unfold DotDims.rhsIdx
  rw [dif_neg (show ¬(0 : Fin S2048x64.rank) ∈ dS.rhsBatch by decide),
    dif_pos (show (0 : Fin S2048x64.rank) ∈ dS.rhsNonContracting by decide)]
  rfl
theorem dS_r1 (i : S256x2048.Idx) (q : dS.contr.Idx) : (dS.rhsIdx i q (1 : Fin 2)).val = (q ⟨0, by decide⟩).val :=
  dS.rhsIdx_val_of_single rfl i q

theorem dV_l0 (i : S256x64.Idx) (q : dV.contr.Idx) : (dV.lhsIdx i q (0 : Fin 2)).val = (i (0 : Fin 2)).val := by
  unfold DotDims.lhsIdx
  rw [dif_neg (show ¬(0 : Fin S256x2048.rank) ∈ dV.lhsBatch by decide),
    dif_pos (show (0 : Fin S256x2048.rank) ∈ dV.lhsNonContracting by decide)]
  rfl
theorem dV_l1 (i : S256x64.Idx) (q : dV.contr.Idx) : (dV.lhsIdx i q (1 : Fin 2)).val = (q ⟨0, by decide⟩).val :=
  dV.lhsIdx_val_of_single rfl i q
theorem dV_r0 (i : S256x64.Idx) (q : dV.contr.Idx) : (dV.rhsIdx i q (0 : Fin 2)).val = (q ⟨0, by decide⟩).val :=
  dV.rhsIdx_val_of_single rfl i q
theorem dV_r1 (i : S256x64.Idx) (q : dV.contr.Idx) : (dV.rhsIdx i q (1 : Fin 2)).val = (i (1 : Fin 2)).val := by
  unfold DotDims.rhsIdx
  rw [dif_neg (show ¬(1 : Fin S2048x64.rank) ∈ dV.rhsBatch by decide),
    dif_pos (show (1 : Fin S2048x64.rank) ∈ dV.rhsNonContracting by decide)]
  rfl

/-! ## The head's arithmetic, step by step -/

/-- The scores at column offset o. -/
def scoresAt (o : ℕ) (hq : S256x1024.Slices ![0, o] S256x64) (hk : S2048x1024.Slices ![0, o] S2048x64)
    (q : FVec Ideal S256x1024 .bf16) (k : FVec Ideal S2048x1024 .bf16) : FVec Ideal S256x2048 .f32 :=
  matmul dS none (extractStridedSlice S256x64 ![0, o] q hq) (extractStridedSlice S2048x64 ![0, o] k hk)
    (constant S256x2048 .f32 0x00000000#32)

/-- Each row's maximum, as a column. -/
def maxCol (s : FVec Ideal S256x2048 .f32) : FVec Ideal S256x1 .f32 :=
  shapeCast S256x1 (multiReduction .maximumf [1] S256 s 0xFF800000#32 reduces_S256x2048_S256 (.inl rfl) rfl)
    shapeCasts_S256_S256x1

/-- The exponentials of the scores less a column. -/
def expOf (s : FVec Ideal S256x2048 .f32) (m : FVec Ideal S256x1 .f32) : FVec Ideal S256x2048 .f32 :=
  exp (subf s (broadcastTo S256x2048 m broadcasts_S256x1_S256x2048))

/-- Each row's sum, as a column. -/
def sumCol (e : FVec Ideal S256x2048 .f32) : FVec Ideal S256x1 .f32 :=
  shapeCast S256x1 (multiReduction .add [1] S256 e 0x00000000#32 reduces_S256x2048_S256 (.inl rfl) rfl)
    shapeCasts_S256_S256x1

/-- The entries divided by a column. -/
def weightsOf (e : FVec Ideal S256x2048 .f32) (z : FVec Ideal S256x1 .f32) : FVec Ideal S256x2048 .bf16 :=
  truncf .bf16 (divf e (broadcastTo S256x2048 z broadcasts_S256x1_S256x2048)) bitsLt_bf16_f32

/-- The weights against the value columns. -/
def outOf (w : FVec Ideal S256x2048 .bf16) (vs : FVec Ideal S2048x64 .bf16) : FVec Ideal S256x64 .f32 :=
  matmul dV none w vs (constant S256x64 .f32 0x00000000#32)

/-- The head at column offset o. -/
def headAt (o : ℕ) (hq : S256x1024.Slices ![0, o] S256x64) (hk : S2048x1024.Slices ![0, o] S2048x64)
    (q : FVec Ideal S256x1024 .bf16) (k v : FVec Ideal S2048x1024 .bf16) : FVec Ideal S256x64 .f32 :=
  outOf
    (weightsOf (expOf (scoresAt o hq hk q k) (maxCol (scoresAt o hq hk q k)))
      (sumCol (expOf (scoresAt o hq hk q k) (maxCol (scoresAt o hq hk q k)))))
    (extractStridedSlice S2048x64 ![0, o] v hk)

/-! ## Each step read at an entry -/

theorem maxCol_apply (s : FVec Ideal S256x2048 .f32) (p : Fin 256) (u : Fin 1) :
    maxCol s (ix2 p u) = (Finset.univ : Finset (Fin 2048)).fold max Spec.cninf (fun n => s (ix2 p n)) := by
  unfold maxCol
  refine (Cert.LibKeepdims.shapeCast_a_a1_apply _ _ p u).trans ?_
  exact Cert.LibRowReduce.multiReduction_maximumf_rows s _ _ _ _ p

theorem expOf_apply (s : FVec Ideal S256x2048 .f32) (m : FVec Ideal S256x1 .f32) (p : Fin 256) (n : Fin 2048) :
    expOf s m (ix2 p n) = Ideal.exp (s (ix2 p n) - m (ix2 p (0 : Fin 1))) := by
  unfold expOf
  show Ideal.exp (s (ix2 p n) - broadcastTo S256x2048 m broadcasts_S256x1_S256x2048 (ix2 p n)) = _
  rw [Cert.LibKeepdims.broadcastTo_a1_ab_apply]

theorem sumCol_apply (e : FVec Ideal S256x2048 .f32) (p : Fin 256) (u : Fin 1) :
    sumCol e (ix2 p u) = ∑ n : Fin 2048, e (ix2 p n) := by
  unfold sumCol
  refine (Cert.LibKeepdims.shapeCast_a_a1_apply _ _ p u).trans ?_
  exact Cert.LibRowReduce.multiReduction_add_rows e _ _ _ _ p

theorem weightsOf_apply (e : FVec Ideal S256x2048 .f32) (z : FVec Ideal S256x1 .f32) (p : Fin 256) (n : Fin 2048) :
    weightsOf e z (ix2 p n) = Ideal.div (e (ix2 p n)) (z (ix2 p (0 : Fin 1))) := by
  unfold weightsOf
  show Ideal.div (e (ix2 p n)) (broadcastTo S256x2048 z broadcasts_S256x1_S256x2048 (ix2 p n)) = _
  rw [Cert.LibKeepdims.broadcastTo_a1_ab_apply]

theorem outOf_apply (w : FVec Ideal S256x2048 .bf16) (vs : FVec Ideal S2048x64 .bf16) (p : Fin 256) (d : Fin 64) :
    outOf w vs (ix2 p d) = ∑ n : Fin 2048, w (ix2 p n) * vs (ix2 n d) :=
  Cert.LibMatmul.matmul_zero_ix2 dV rfl rfl dV_l0 dV_l1 dV_r0 dV_r1 none w vs p d

/-- The scores at (p, n): the inner product of query row p with key row n over head h's columns. -/
theorem scoresAt_apply (o : ℕ) (hq : S256x1024.Slices ![0, o] S256x64) (hk : S2048x1024.Slices ![0, o] S2048x64)
    (q : FVec Ideal S256x1024 .bf16) (k : FVec Ideal S2048x1024 .bf16) (h : Fin 16) (ho : o = h.val * 64)
    (p : Fin 256) (n : Fin 2048) :
    scoresAt o hq hk q k (ix2 p n)
      = Spec.headScore (fun c => q (ix2 p c)) (fun n' c => k (ix2 n' c)) h n := by
  unfold scoresAt Spec.headScore
  refine (Cert.LibMatmulNT.matmul_zero_nt_ix2 dS rfl rfl dS_l0 dS_l1 dS_r0 dS_r1 none _ _ p n).trans ?_
  refine Finset.sum_congr rfl fun d _ => ?_
  have hd : (Spec.hd h d).val = o + d.val := by rw [ho]; rfl
  rw [slice2_axis1_apply o q hq p d (Spec.hd h d) hd, slice2_axis1_apply o k hk n d (Spec.hd h d) hd]

/-- The head at (p, d): the specification's output of head h for query row p at column d. -/
theorem headAt_apply (o : ℕ) (hq : S256x1024.Slices ![0, o] S256x64) (hk : S2048x1024.Slices ![0, o] S2048x64)
    (q : FVec Ideal S256x1024 .bf16) (k v : FVec Ideal S2048x1024 .bf16) (h : Fin 16) (ho : o = h.val * 64)
    (p : Fin 256) (d : Fin 64) :
    headAt o hq hk q k v (ix2 p d)
      = Spec.headOut (fun c => q (ix2 p c)) (fun n' c => k (ix2 n' c)) (fun n' c => v (ix2 n' c)) h d := by
  have hS := scoresAt_apply o hq hk q k h ho p
  have hM : ∀ u : Fin 1, maxCol (scoresAt o hq hk q k) (ix2 p u)
      = Spec.headMax (fun c => q (ix2 p c)) (fun n' c => k (ix2 n' c)) h := fun u => by
    rw [maxCol_apply]
    exact congrArg (fun f => (Finset.univ : Finset (Fin 2048)).fold max Spec.cninf f) (funext hS)
  have hE : ∀ n : Fin 2048, expOf (scoresAt o hq hk q k) (maxCol (scoresAt o hq hk q k)) (ix2 p n)
      = Spec.headExp (fun c => q (ix2 p c)) (fun n' c => k (ix2 n' c)) h n := fun n => by
    rw [expOf_apply, hS, hM]; rfl
  have hZ : ∀ u : Fin 1, sumCol (expOf (scoresAt o hq hk q k) (maxCol (scoresAt o hq hk q k))) (ix2 p u)
      = Spec.headSum (fun c => q (ix2 p c)) (fun n' c => k (ix2 n' c)) h := fun u => by
    rw [sumCol_apply]; exact Finset.sum_congr rfl fun n _ => hE n
  unfold headAt Spec.headOut
  rw [outOf_apply]
  refine Finset.sum_congr rfl fun n _ => ?_
  have hd : (Spec.hd h d).val = o + d.val := by rw [ho]; rfl
  rw [weightsOf_apply, hE, hZ, slice2_axis1_apply o v hk n d (Spec.hd h d) hd]
  rfl

end Cert.KernelIdeal.AttnBlock

end
-- ==== Proof.AttnHeads.lean ====
/-
  The sixteen heads of the second kernel body, read at an entry.

  The body computes head h from the columns 64 h … 64 h + 63 of its query block, key rows and value rows, always by the
  same steps; only the places where the text is cut into pieces differ from head to head. Each of the sixteen is
  therefore the one head arithmetic at column offset 64 h, and, read at entry (p, d), the specification's output of
  head h for query row p at column d.
-/
import proofs.«130152_j1030792151557_2_alg».proof.Proof.AttnHead

noncomputable section

namespace Cert.KernelIdeal.AttnBlock

open Idealize.ShloMosaic Idealize.ShloMosaic.ValueIdx Cert.KernelIdeal Cert.KernelIdeal.Gen

/-- The sixteen column ranges lie inside the 1024 columns. -/
theorem hq_all : ∀ h : Fin 16, S256x1024.Slices ![0, h.val * 64] S256x64 := by decide
theorem hk_all : ∀ h : Fin 16, S2048x1024.Slices ![0, h.val * 64] S2048x64 := by decide

/-- A block recast to its own shape is the block. -/
theorem pay3_eq (q : Vec Ideal S256x1024 .bf16) : k1_pay3 (F := Ideal) q = q := shapeCast_self q _
theorem pay4_eq (k : Vec Ideal S2048x1024 .bf16) : k1_pay4 (F := Ideal) k = k := shapeCast_self k _
theorem pay5_eq (v : Vec Ideal S2048x1024 .bf16) : k1_pay5 (F := Ideal) v = v := shapeCast_self v _

/-- Head h of the body is the head arithmetic at column offset 64 h. -/
theorem heads_eq_headAt (q : Vec Ideal S256x1024 .bf16) (k v : Vec Ideal S2048x1024 .bf16) (h : Fin 16) :
    Hand.heads (F := Ideal) q k v h
      = headAt (h.val * 64) (hq_all h) (hk_all h) (k1_pay3 (F := Ideal) q) (k1_pay4 (F := Ideal) k) (k1_pay5 (F := Ideal) v) := by
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, hn⟩ => exact absurd hn (by omega)

/-- Head h at (p, d): the specification's output of head h for query row p at column d. -/
theorem heads_apply (q : Vec Ideal S256x1024 .bf16) (k v : Vec Ideal S2048x1024 .bf16) (h : Fin 16)
    (p : Fin 256) (d : Fin 64) :
    Hand.heads (F := Ideal) q k v h (ix2 p d)
      = Spec.headOut (fun c => q (ix2 p c)) (fun n' c => k (ix2 n' c)) (fun n' c => v (ix2 n' c)) h d := by
  rw [heads_eq_headAt, pay3_eq, pay4_eq, pay5_eq]
  exact headAt_apply _ _ _ q k v h rfl p d

end Cert.KernelIdeal.AttnBlock

end
-- ==== Proof.AttnBlock.lean ====
/-
  The second kernel body's stored block, read at an entry.

  The sixteen heads' outputs are laid side by side along the columns, so column c of the 256 × 1024 block belongs to
  head c / 64 at its column c % 64: at (p, c) the block holds the specification's attention row of query row p at
  column c. The stored block is that block's product with the output weights, contracted along the weights' rows, plus
  the bias row repeated down the rows: at (p, j) the specification's output row of query row p at column j.
-/
import proofs.«130152_j1030792151557_2_alg».proof.Proof.AttnHeads

noncomputable section

namespace Cert.KernelIdeal.AttnBlock

open Idealize.ShloMosaic Idealize.ShloMosaic.ValueIdx Cert.KernelIdeal Cert.KernelIdeal.Gen

/-! ## The heads side by side -/

/-- The heads side by side at (p, c): head c / 64 at (p, c % 64), the specification's attention row at column c. -/
theorem headsCat_apply (q : Vec Ideal S256x1024 .bf16) (k v : Vec Ideal S2048x1024 .bf16) (p : Fin 256) (c : Fin 1024) :
    Hand.headsCat (F := Ideal) q k v (ix2 p c)
      = Spec.attnRow (fun c => q (ix2 p c)) (fun n' c => k (ix2 n' c)) (fun n' c => v (ix2 n' c)) c := by
  unfold Spec.attnRow
  refine Eq.trans ?_ (heads_apply q k v ⟨c.val / 64, by omega⟩ p ⟨c.val % 64, by omega⟩)
  exact concatenate_ofFn_apply (t := S256x1024) (s₁ := S256x64) (1 : Fin 2) (Hand.heads (F := Ideal) q k v)
    concatenates_S256x64_S256x64_S256x64_S256x64_S256x64_S256x64_S256x64_S256x64_S256x64_S256x64_S256x64_S256x64_S256x64_S256x64_S256x64_S256x64_S256x1024_d1
    rfl 64 rfl (ix2 p c) ⟨c.val / 64, by omega⟩ rfl (ix2 p ⟨c.val % 64, by omega⟩) rfl
    (fun b hb => match b, hb with
      | ⟨0, _⟩, _ => rfl
      | ⟨1, _⟩, hb => absurd rfl hb)

/-! ## The product with the output weights and the bias -/

/-- The output product: a 256 × 1024 block against the 1024 × 1024 weights, contracted along the weights' rows. -/
abbrev dO : DotDims S256x1024 S1024x1024 S256x1024 := dot_S256x1024_S1024x1024_S256x1024_1_0_0_1_n_n

theorem dO_l0 (i : S256x1024.Idx) (q : dO.contr.Idx) : (dO.lhsIdx i q (0 : Fin 2)).val = (i (0 : Fin 2)).val := by
  unfold DotDims.lhsIdx
  rw [dif_neg (show ¬(0 : Fin S256x1024.rank) ∈ dO.lhsBatch by decide),
    dif_pos (show (0 : Fin S256x1024.rank) ∈ dO.lhsNonContracting by decide)]
  rfl
theorem dO_l1 (i : S256x1024.Idx) (q : dO.contr.Idx) : (dO.lhsIdx i q (1 : Fin 2)).val = (q ⟨0, by decide⟩).val :=
  dO.lhsIdx_val_of_single rfl i q
theorem dO_r0 (i : S256x1024.Idx) (q : dO.contr.Idx) : (dO.rhsIdx i q (0 : Fin 2)).val = (q ⟨0, by decide⟩).val :=
  dO.rhsIdx_val_of_single rfl i q
theorem dO_r1 (i : S256x1024.Idx) (q : dO.contr.Idx) : (dO.rhsIdx i q (1 : Fin 2)).val = (i (1 : Fin 2)).val := by
  unfold DotDims.rhsIdx
  rw [dif_neg (show ¬(1 : Fin S1024x1024.rank) ∈ dO.rhsBatch by decide),
    dif_pos (show (1 : Fin S1024x1024.rank) ∈ dO.rhsNonContracting by decide)]
  rfl

/-- The stored block at (p, j): the specification's output row of query row p at column j. -/
theorem stO_apply (q : Vec Ideal S256x1024 .bf16) (k v : Vec Ideal S2048x1024 .bf16) (wo : Vec Ideal S1024x1024 .bf16)
    (bo : Vec Ideal S1x1024 .f32) (p : Fin 256) (j : Fin 1024) :
    Cert.KernelIdeal.Hand.stO q k v wo bo (ix2 p j)
      = Cert.Spec.outRow (fun c => q (ix2 p c)) (fun n' c => k (ix2 n' c)) (fun n' c => v (ix2 n' c))
          (fun j' c => wo (ix2 c j')) (fun j' => bo (ix2 0 j')) j := by
  show FloatOps.matmul dO none (truncf .bf16 (Hand.headsCat (F := Ideal) q k v) bitsLt_bf16_f32)
        (shapeCast S1024x1024 wo shapeCasts_S1024x1024_S1024x1024) (constant S256x1024 .f32 0x00000000#32) (ix2 p j)
      + broadcastTo S256x1024 (shapeCast S1x1024 bo shapeCasts_S1x1024_S1x1024) broadcasts_S1x1024_S256x1024 (ix2 p j) = _
  rw [shapeCast_self, shapeCast_self, broadcastTo_1b_ab_apply,
    Cert.LibMatmul.matmul_zero_ix2 dO rfl rfl dO_l0 dO_l1 dO_r0 dO_r1]
  unfold Spec.outRow
  refine congrArg (· + bo (ix2 (0 : Fin 1) j)) (Finset.sum_congr rfl fun c _ => ?_)
  show Hand.headsCat (F := Ideal) q k v (ix2 p c) * wo (ix2 c j) = _
  rw [headsCat_apply]

end Cert.KernelIdeal.AttnBlock

end
-- ==== Proof.Arr1.lean ====
/-
  The second region's output array as one function.

  The second region runs over a 2 × 8 grid: point (b, qi) loads the 256 query rows (b·8 + qi)·256 …, the 2048 key rows
  and the 2048 value rows of batch entry b, the output weights and the bias, and writes back the 256 output rows
  (b·8 + qi)·256 …. The body's block at (p, j) is the specification's output row of its loaded blocks; reading each
  loaded block where it sits in its array gives the output row of query row i₀ = (b·8 + qi)·256 + p against the key
  and value rows (i₀ / 2048)·2048 …. The sixteen written blocks tile the array, so after the region the array holds that
  function at every index.
-/
import proofs.«130152_j1030792151557_2_alg».proof.Proof.FrameDefsKI
import proofs.«130152_j1030792151557_2_alg».proof.Proof.Spec
import proofs.«130152_j1030792151557_2_alg».proof.Proof.AttnBlock
import Idealize.ShloMosaic.Lib.Pipeline.Value
import Idealize.ShloMosaic.Lib.ValueIdx

set_option maxRecDepth 16384

noncomputable section

namespace Cert.KernelIdeal.Arr1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The output array as one function -/

/-- Row i₀ of the output array: the query row i₀ against the 2048 key and value rows of its batch entry
    (rows (i₀ / 2048)·2048 … of the key and value arrays), the output weights and the bias. -/
def GO (c : Dev nD) : S4096x1024.Idx → EReal := fun i =>
  Cert.Spec.outRow (fun cc => (V c main_v11_0 : S4096x1024.Idx → EReal) (ix2 (i 0) cc))
    (fun n' cc => (V c main_v11_1 : S4096x1024.Idx → EReal)
      (ix2 (⟨((i 0).val / 2048) * 2048 + n'.val, by have h0 : (i 0).val < 4096 := (i 0).isLt; have h1 : n'.val < 2048 := n'.isLt; omega⟩ : Fin 4096) cc))
    (fun n' cc => (V c main_v11_2 : S4096x1024.Idx → EReal)
      (ix2 (⟨((i 0).val / 2048) * 2048 + n'.val, by have h0 : (i 0).val < 4096 := (i 0).isLt; have h1 : n'.val < 2048 := n'.isLt; omega⟩ : Fin 4096) cc))
    (fun j' cc => (V c main_v10 : S1024x1024.Idx → EReal) (ix2 cc j'))
    (fun j' => (V c main_v3 : S1x1024.Idx → EReal) (ix2 (0 : Fin 1) j')) (i 1)

/-! ## The block index maps over the grid -/

theorem hz : (![0, 0] : Fin 2 → Nat) = fun _ => 0 := funext fun a => by fin_cases a <;> rfl

/-- The printed index maps, decided over the sixteen grid points: the query block moves with the output block, the key
    and value blocks are the batch entry's (the output block index divided by 8), the weights and the bias are whole. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) / 8
    ∧ win1_1.index t (1 : Fin 2) = 0
    ∧ win1_2.index t (0 : Fin 2) = win1_5.index t (0 : Fin 2) / 8
    ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 15 ∧ win1_5.index t (1 : Fin 2) = 0 :=
  (by decide +kernel : ∀ t : Fin grid1.N, _)

/-- Every one of the sixteen row blocks of the output array is some point's. -/
theorem idx_onto : ∀ q0 : Fin 16, ∃ t : Fin cfg1.N, win1_5.index t = ![q0.val, 0] :=
  (by decide +kernel : ∀ q0 : Fin 16, ∃ t : Fin grid1.N, win1_5.index t = ![q0.val, 0])

/-- An index of the output array is in point t's block iff each coordinate is in the block's range on its axis. -/
theorem mem_blk (t : Fin cfg1.N) (i : S4096x1024.Idx) :
    i ∈ ((cfg1.win 5).blk t).view.set ↔ ∀ a : Fin 2, win1_5.index t a * S256x1024.size a ≤ (i a).val
      ∧ (i a).val < win1_5.index t a * S256x1024.size a + S256x1024.size a := by
  show i ∈ ((View.whole main_v12).slice (win1_5.rect t)).set ↔ _
  rw [View.set_slice_whole, Rect.mem_set_unit]
  exact Iff.rfl

/-- Row r of the output array is in the block of the point whose block index is r / 256. -/
theorem cover (i : S4096x1024.Idx) :
    ∃ t : Fin cfg1.N, (cfg1.win 5).flush t = true ∧ i ∈ ((cfg1.win 5).blk t).view.set := by
  have hi0 : (i 0).val < 4096 := (i 0).isLt
  have hi1 : (i 1).val < 1024 := (i 1).isLt
  obtain ⟨t, ht⟩ := idx_onto ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 1024 ≤ (i 1).val ∧ (i 1).val < win1_5.index t (1 : Fin 2) * 1024 + 1024
    omega

/-! ## What a point writes back -/

/-- What point t writes back is block t of the output function: the body's block at (p, j) is the output row of its
    loaded blocks, and each loaded block is its array read where the block sits — the query block at the output
    block's rows, the key and value blocks at the rows of the batch entry, the weights and the bias whole. -/
theorem flushed_eq (c : Dev nD) (t : Fin cfg1.N) :
    (dat1 V c).flushed 5 t = ((cfg1.win 5).blk t).view.read (Elt Ideal) (GO V c) := by
  show (cfg1.win 5).cut (grid1.coords t) ((dat1 V c).after 5 t) = _
  rw [after1_5]
  unfold out1_5
  rw [View.canon_unit_zero hz]
  simp only [View.ld_unit_zero (S := S256x1024) hz, View.ld_unit_zero (S := S2048x1024) hz,
    View.ld_unit_zero (S := S1024x1024) hz, View.ld_unit_zero (S := S1x1024) hz]
  obtain ⟨e00, e01, e10, e11, e20, e21, e30, e31, e40, e41, e5le, e51⟩ := idx_facts t
  funext y
  obtain ⟨p, j, rfl⟩ : ∃ (p : Fin 256) (j : Fin 1024), y = ix2 p j := ⟨y 0, y 1, eq_ix2 y⟩
  show stO (iblk1 V c 0 t) (iblk1 V c 1 t) (iblk1 V c 2 t) (iblk1 V c 3 t) (iblk1 V c 4 t) (ix2 p j)
    = GO V c (((cfg1.win 5).blk t).view.emb (ix2 p j))
  have hp : p.val < 256 := p.isLt
  have hr : win1_5.index t (0 : Fin 2) * 256 + p.val < 4096 := by omega
  have e5 : ((cfg1.win 5).blk t).view.emb (ix2 p j)
      = ix2 (⟨win1_5.index t (0 : Fin 2) * 256 + p.val, hr⟩ : Fin 4096) j := by
    funext a; apply Fin.ext
    match a with
    | ⟨0, _⟩ => show win1_5.index t (0 : Fin 2) * 256 + 1 * p.val = win1_5.index t (0 : Fin 2) * 256 + p.val; omega
    | ⟨1, _⟩ => show win1_5.index t (1 : Fin 2) * 1024 + 1 * j.val = j.val; omega
  have f0 : (fun cc : Fin 1024 => iblk1 V c 0 t (ix2 p cc))
      = fun cc : Fin 1024 => (V c main_v11_0 : S4096x1024.Idx → EReal)
          (ix2 (⟨win1_5.index t (0 : Fin 2) * 256 + p.val, hr⟩ : Fin 4096) cc) := funext fun cc => by
    show (V c main_v11_0 : S4096x1024.Idx → EReal) (((cfg1.win 0).blk t).view.emb (ix2 p cc)) = _
    refine congrArg (V c main_v11_0 : S4096x1024.Idx → EReal) ?_
    funext a; apply Fin.ext
    match a with
    | ⟨0, _⟩ => show win1_0.index t (0 : Fin 2) * 256 + 1 * p.val = win1_5.index t (0 : Fin 2) * 256 + p.val; omega
    | ⟨1, _⟩ => show win1_0.index t (1 : Fin 2) * 1024 + 1 * cc.val = cc.val; omega
  have f1 : (fun (n' : Fin 2048) (cc : Fin 1024) => iblk1 V c 1 t (ix2 n' cc))
      = fun (n' : Fin 2048) (cc : Fin 1024) => (V c main_v11_1 : S4096x1024.Idx → EReal)
          (ix2 (⟨((win1_5.index t (0 : Fin 2) * 256 + p.val) / 2048) * 2048 + n'.val,
            by have h1 : n'.val < 2048 := n'.isLt; omega⟩ : Fin 4096) cc) := funext fun n' => funext fun cc => by
    show (V c main_v11_1 : S4096x1024.Idx → EReal) (((cfg1.win 1).blk t).view.emb (ix2 n' cc)) = _
    refine congrArg (V c main_v11_1 : S4096x1024.Idx → EReal) ?_
    funext a; apply Fin.ext
    match a with
    | ⟨0, _⟩ =>
      show win1_1.index t (0 : Fin 2) * 2048 + 1 * n'.val = ((win1_5.index t (0 : Fin 2) * 256 + p.val) / 2048) * 2048 + n'.val
      omega
    | ⟨1, _⟩ => show win1_1.index t (1 : Fin 2) * 1024 + 1 * cc.val = cc.val; omega
  have f2 : (fun (n' : Fin 2048) (cc : Fin 1024) => iblk1 V c 2 t (ix2 n' cc))
      = fun (n' : Fin 2048) (cc : Fin 1024) => (V c main_v11_2 : S4096x1024.Idx → EReal)
          (ix2 (⟨((win1_5.index t (0 : Fin 2) * 256 + p.val) / 2048) * 2048 + n'.val,
            by have h1 : n'.val < 2048 := n'.isLt; omega⟩ : Fin 4096) cc) := funext fun n' => funext fun cc => by
    show (V c main_v11_2 : S4096x1024.Idx → EReal) (((cfg1.win 2).blk t).view.emb (ix2 n' cc)) = _
    refine congrArg (V c main_v11_2 : S4096x1024.Idx → EReal) ?_
    funext a; apply Fin.ext
    match a with
    | ⟨0, _⟩ =>
      show win1_2.index t (0 : Fin 2) * 2048 + 1 * n'.val = ((win1_5.index t (0 : Fin 2) * 256 + p.val) / 2048) * 2048 + n'.val
      omega
    | ⟨1, _⟩ => show win1_2.index t (1 : Fin 2) * 1024 + 1 * cc.val = cc.val; omega
  have f3 : (fun (j' cc : Fin 1024) => iblk1 V c 3 t (ix2 cc j'))
      = fun (j' cc : Fin 1024) => (V c main_v10 : S1024x1024.Idx → EReal) (ix2 cc j') := funext fun j' => funext fun cc => by
    show (V c main_v10 : S1024x1024.Idx → EReal) (((cfg1.win 3).blk t).view.emb (ix2 cc j')) = _
    refine congrArg (V c main_v10 : S1024x1024.Idx → EReal) ?_
    funext a; apply Fin.ext
    match a with
    | ⟨0, _⟩ => show win1_3.index t (0 : Fin 2) * 1024 + 1 * cc.val = cc.val; omega
    | ⟨1, _⟩ => show win1_3.index t (1 : Fin 2) * 1024 + 1 * j'.val = j'.val; omega
  have f4 : (fun j' : Fin 1024 => iblk1 V c 4 t (ix2 (0 : Fin 1) j'))
      = fun j' : Fin 1024 => (V c main_v3 : S1x1024.Idx → EReal) (ix2 (0 : Fin 1) j') := funext fun j' => by
    show (V c main_v3 : S1x1024.Idx → EReal) (((cfg1.win 4).blk t).view.emb (ix2 (0 : Fin 1) j')) = _
    refine congrArg (V c main_v3 : S1x1024.Idx → EReal) ?_
    funext a; apply Fin.ext
    match a with
    | ⟨0, _⟩ => show win1_4.index t (0 : Fin 2) * 1 + 1 * 0 = 0; omega
    | ⟨1, _⟩ => show win1_4.index t (1 : Fin 2) * 1024 + 1 * j'.val = j'.val; omega
  rw [e5]
  refine (AttnBlock.stO_apply _ _ _ _ _ p j).trans ?_
  show Cert.Spec.outRow (fun cc : Fin 1024 => iblk1 V c 0 t (ix2 p cc)) (fun (n' : Fin 2048) (cc : Fin 1024) => iblk1 V c 1 t (ix2 n' cc))
    (fun (n' : Fin 2048) (cc : Fin 1024) => iblk1 V c 2 t (ix2 n' cc)) (fun (j' cc : Fin 1024) => iblk1 V c 3 t (ix2 cc j'))
    (fun j' : Fin 1024 => iblk1 V c 4 t (ix2 (0 : Fin 1) j')) j = _
  rw [f0, f1, f2, f3, f4]
  rfl

/-! ## The array after the region -/

/-- The sixteen write-backs tile the output array, so after the region it holds the output function. -/
theorem arr1 (c : Dev nD) : (dat1 V c).arrAt 5 cfg1.N = GO V c :=
  (dat1 V c).arrAt_eq_of_cover 5 (GO V c) (fun t _ => flushed_eq V c t) cover

end Cert.KernelIdeal.Arr1

end
-- ==== Proof.Proj0.lean ====
/-
  The first body's stored blocks, read at an entry.

  The body normalises each of its 256 rows (mean, variance, 1/√(variance + ε), scale and shift), multiplies the block
  by the 1024 × 3072 weight matrix and cuts the product into three 256 × 1024 blocks. Read at (p, j), the three blocks
  are the normalised row p against columns j, 1024 + j and 2048 + j of the weights — the first also times 1/8. The row
  sums are lane sums, the mean and variance columns are kept as 256 × 1 arrays and broadcast back along the rows, and
  the product into the zero accumulator is the plain sum over the contracted axis; a change of float format is the
  identity.
-/
import proofs.«130152_j1030792151557_2_alg».proof.Proof.TermsKI
import proofs.«130152_j1030792151557_2_alg».proof.Proof.Spec
import proofs.«130152_j1030792151557_2_alg».proof.Proof.LibRowReduce
import proofs.«130152_j1030792151557_2_alg».proof.Proof.LibMatmul
import proofs.«130152_j1030792151557_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj0

open Idealize.ShloMosaic Idealize.ShloMosaic.ValueIdx Cert.KernelIdeal Cert.KernelIdeal.Gen Cert.Spec

/-- Row sums of a 256 × 1024 block, kept as a column. -/
def rsum (x : FVec Ideal S256x1024 .f32) : FVec Ideal S256x1 .f32 :=
  shapeCast S256x1 (multiReduction .add [1] S256 x 0x00000000#32 reduces_S256x1024_S256 (.inl rfl) rfl) shapeCasts_S256_S256x1

/-- The column of row sums divided by 1024. -/
def dcol (x : FVec Ideal S256x1024 .f32) : FVec Ideal S256x1 .f32 :=
  divf (rsum x) (broadcast S256x1 (Scalar.ofBits .f32 0x44800000#32))

/-- The block with its row means subtracted. -/
def cen (x : FVec Ideal S256x1024 .f32) : FVec Ideal S256x1024 .f32 :=
  subf x (broadcastTo S256x1024 (dcol x) broadcasts_S256x1_S256x1024)

/-- The column of 1/√(variance + ε). -/
def rcol (x : FVec Ideal S256x1024 .f32) : FVec Ideal S256x1 .f32 :=
  rsqrt (addf (dcol (mulf (cen x) (cen x))) (broadcast S256x1 (Scalar.ofBits .f32 0x3727C5AC#32)))

/-- The normalised block, scaled and shifted. -/
def lnB (x : FVec Ideal S256x1024 .f32) (g be : FVec Ideal S1x1024 .f32) : FVec Ideal S256x1024 .f32 :=
  addf (mulf (mulf (cen x) (broadcastTo S256x1024 (rcol x) broadcasts_S256x1_S256x1024))
    (broadcastTo S256x1024 g broadcasts_S1x1024_S256x1024)) (broadcastTo S256x1024 be broadcasts_S1x1024_S256x1024)

theorem pay2_eq (x : Vec Ideal S256x1024 .f32) (g be : Vec Ideal S1x1024 .f32) (w : Vec Ideal S1024x3072 .bf16) :
    k0_pay2 x g be w
      = matmul dot_S256x1024_S1024x3072_S256x3072_1_0_0_1_n_n none
          (truncf .bf16 (lnB (shapeCast S256x1024 x shapeCasts_S256x1024_S256x1024)
            (shapeCast S1x1024 g shapeCasts_S1x1024_S1x1024) (shapeCast S1x1024 be shapeCasts_S1x1024_S1x1024)) bitsLt_bf16_f32)
          (shapeCast S1024x3072 w shapeCasts_S1024x3072_S1024x3072 : FVec Ideal S1024x3072 .bf16) (constant S256x3072 .f32 0x00000000#32) := rfl

/-- Row p of a 256 × 1024 block. -/
abbrev brow (x : FVec Ideal S256x1024 .f32) (p : Fin 256) : Row := fun k => x (ix2 p k)
/-- A 1 × 1024 array as a row. -/
abbrev urow (g : FVec Ideal S1x1024 .f32) : Row := fun k => g (ix2 (0 : Fin 1) k)

theorem rsum_apply (x : FVec Ideal S256x1024 .f32) (p : Fin 256) :
    rsum x (ix2 p (0 : Fin 1)) = ∑ k : Fin 1024, x (ix2 p k) := by
  unfold rsum
  refine (Cert.LibKeepdims.shapeCast_a_a1_apply _ shapeCasts_S256_S256x1 p 0).trans ?_
  exact Cert.LibRowReduce.multiReduction_add_rows x 0x00000000#32 reduces_S256x1024_S256 (.inl rfl) rfl p

theorem dcol_apply (x : FVec Ideal S256x1024 .f32) (p : Fin 256) :
    dcol x (ix2 p (0 : Fin 1)) = Ideal.div (∑ k : Fin 1024, x (ix2 p k)) c1024 := by
  show Ideal.div (rsum x (ix2 p (0 : Fin 1))) _ = _
  rw [rsum_apply]; rfl

theorem cen_apply (x : FVec Ideal S256x1024 .f32) (p : Fin 256) (k : Fin 1024) :
    cen x (ix2 p k) = rowC (brow x p) k := by
  show x (ix2 p k) - broadcastTo S256x1024 (dcol x) broadcasts_S256x1_S256x1024 (ix2 p k) = _
  rw [Cert.LibKeepdims.broadcastTo_a1_ab_apply, dcol_apply]; rfl

theorem rcol_apply (x : FVec Ideal S256x1024 .f32) (p : Fin 256) :
    rcol x (ix2 p (0 : Fin 1)) = Ideal.rsqrt (rowVar (brow x p) + ceps) := by
  show Ideal.rsqrt (dcol (mulf (cen x) (cen x)) (ix2 p (0 : Fin 1)) + _) = _
  rw [dcol_apply]
  simp only [mulf_apply, cen_apply]; rfl

theorem lnB_apply (x : FVec Ideal S256x1024 .f32) (g be : FVec Ideal S1x1024 .f32) (p : Fin 256) (k : Fin 1024) :
    lnB x g be (ix2 p k) = rowLn (brow x p) (urow g) (urow be) k := by
  show cen x (ix2 p k) * broadcastTo S256x1024 (rcol x) broadcasts_S256x1_S256x1024 (ix2 p k)
      * broadcastTo S256x1024 g broadcasts_S1x1024_S256x1024 (ix2 p k)
      + broadcastTo S256x1024 be broadcasts_S1x1024_S256x1024 (ix2 p k) = _
  rw [Cert.LibKeepdims.broadcastTo_a1_ab_apply, broadcastTo_1b_ab_apply, broadcastTo_1b_ab_apply, cen_apply, rcol_apply]; rfl

/-- The product's dimension record: rows against the first axis of the weights. -/
abbrev D0 := dot_S256x1024_S1024x3072_S256x3072_1_0_0_1_n_n

theorem D0_l0 (i : S256x3072.Idx) (q : D0.contr.Idx) : (D0.lhsIdx i q 0).val = (i 0).val := by
  unfold DotDims.lhsIdx
  rw [dif_neg (show ¬(0 : Fin S256x1024.rank) ∈ D0.lhsBatch by decide), dif_pos (show (0 : Fin S256x1024.rank) ∈ D0.lhsNonContracting by decide)]
  rfl
theorem D0_l1 (i : S256x3072.Idx) (q : D0.contr.Idx) : (D0.lhsIdx i q 1).val = (q ⟨0, by decide⟩).val :=
  D0.lhsIdx_val_of_single rfl i q
theorem D0_r0 (i : S256x3072.Idx) (q : D0.contr.Idx) : (D0.rhsIdx i q 0).val = (q ⟨0, by decide⟩).val :=
  D0.rhsIdx_val_of_single rfl i q
theorem D0_r1 (i : S256x3072.Idx) (q : D0.contr.Idx) : (D0.rhsIdx i q 1).val = (i 1).val := by
  unfold DotDims.rhsIdx
  rw [dif_neg (show ¬(1 : Fin S1024x3072.rank) ∈ D0.rhsBatch by decide), dif_pos (show (1 : Fin S1024x3072.rank) ∈ D0.rhsNonContracting by decide)]
  rfl

/-- Entry (p, c) of the 256 × 3072 product: the normalised row p against column c of the weights. -/
theorem pay2_apply (x : Vec Ideal S256x1024 .f32) (g be : Vec Ideal S1x1024 .f32) (w : Vec Ideal S1024x3072 .bf16)
    (p : Fin 256) (c : Fin 3072) :
    k0_pay2 x g be w (ix2 p c) = rowProj (brow x p) (urow g) (urow be) (fun k => w (ix2 k c)) := by
  rw [pay2_eq, shapeCast_self, shapeCast_self, shapeCast_self, shapeCast_self]
  refine (Cert.LibMatmul.matmul_zero_ix2 (φ₁ := .bf16) (φ₂ := .bf16) D0 rfl rfl D0_l0 D0_l1 D0_r0 D0_r1 none (truncf .bf16 (lnB x g be) bitsLt_bf16_f32) w p c).trans ?_
  refine Finset.sum_congr rfl fun k _ => ?_
  show lnB x g be (ix2 p k) * w (ix2 k c) = _
  rw [lnB_apply]

/-- The three stored blocks at (p, j): the normalised row against columns j, 1024 + j and 2048 + j of the weights. -/
theorem stQ_apply (x : Vec Ideal S256x1024 .f32) (g be : Vec Ideal S1x1024 .f32) (w : Vec Ideal S1024x3072 .bf16)
    (p : Fin 256) (j : Fin 1024) :
    Hand.stQ x g be w (ix2 p j)
      = rowProj (brow x p) (urow g) (urow be) (fun k => w (ix2 k (⟨j.val, by omega⟩ : Fin 3072))) * cscale := by
  show extractStridedSlice S256x1024 ![0, 0] (k0_pay2 x g be w) slices_S256x3072_o0_0_S256x1024 (ix2 p j) * _ = _
  rw [slice2_axis1_apply 0 _ _ p j (⟨j.val, by omega⟩ : Fin 3072) (by simp), pay2_apply]; rfl

theorem stK_apply (x : Vec Ideal S256x1024 .f32) (g be : Vec Ideal S1x1024 .f32) (w : Vec Ideal S1024x3072 .bf16)
    (p : Fin 256) (j : Fin 1024) :
    Hand.stK x g be w (ix2 p j)
      = rowProj (brow x p) (urow g) (urow be) (fun k => w (ix2 k (⟨1024 + j.val, by omega⟩ : Fin 3072))) := by
  show extractStridedSlice S256x1024 ![0, 1024] (k0_pay2 x g be w) slices_S256x3072_o0_1024_S256x1024 (ix2 p j) = _
  rw [slice2_axis1_apply 1024 _ _ p j (⟨1024 + j.val, by omega⟩ : Fin 3072) rfl, pay2_apply]

theorem stV_apply (x : Vec Ideal S256x1024 .f32) (g be : Vec Ideal S1x1024 .f32) (w : Vec Ideal S1024x3072 .bf16)
    (p : Fin 256) (j : Fin 1024) :
    Hand.stV x g be w (ix2 p j)
      = rowProj (brow x p) (urow g) (urow be) (fun k => w (ix2 k (⟨2048 + j.val, by omega⟩ : Fin 3072))) := by
  show extractStridedSlice S256x1024 ![0, 2048] (k0_pay2 x g be w) slices_S256x3072_o0_2048_S256x1024 (ix2 p j) = _
  rw [slice2_axis1_apply 2048 _ _ p j (⟨2048 + j.val, by omega⟩ : Fin 3072) rfl, pay2_apply]

end Cert.KernelIdeal.Proj0

end
-- ==== Proof.Arr0.lean ====
/-
  The three arrays the first region leaves, each as one function of what the region found.

  The grid has sixteen points; point t works on rows 256·t … 256·t + 255. Its x block is those rows of the 4096 × 1024
  array, the scale, shift and weight windows are the whole arrays at every point, and each output block goes back to
  the same rows. So row r of each output array is the normalised row r of x against the columns of the weights: the
  query columns (times 1/8), the key columns, the value columns. Every row lies in the block of point r / 256.
-/
import proofs.«130152_j1030792151557_2_alg».proof.Proof.FrameDefsKI
import proofs.«130152_j1030792151557_2_alg».proof.Proof.Proj0
import Idealize.ShloMosaic.Lib.Pipeline.Value

set_option maxRecDepth 16384

noncomputable section

namespace Cert.KernelIdeal.Arr0

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b))

theorem hz : (![0, 0] : Fin 2 → Nat) = fun _ => 0 := funext fun a => by fin_cases a <;> rfl

/-- Row r of the x array, and the scale and shift rows, as the region finds them. -/
def xr (c : Dev nD) (r : Fin 4096) : Row := fun k => (V c main_v0 : S4096x1024.Idx → EReal) (ix2 r k)
def gr (c : Dev nD) : Row := fun k => (V c main_v1 : S1x1024.Idx → EReal) (ix2 (0 : Fin 1) k)
def br (c : Dev nD) : Row := fun k => (V c main_v2 : S1x1024.Idx → EReal) (ix2 (0 : Fin 1) k)
/-- Column q of the weights. -/
def wc (c : Dev nD) (q : Fin 3072) : Row := fun k => (V c main_v8 : S1024x3072.Idx → EReal) (ix2 k q)

/-- The three output arrays. -/
def GQ (c : Dev nD) : S4096x1024.Idx → EReal := fun i =>
  rowProj (xr V c (i 0)) (gr V c) (br V c) (wc V c ⟨(i 1).val, by have h : (i 1).val < 1024 := (i 1).isLt; omega⟩) * cscale
def GK (c : Dev nD) : S4096x1024.Idx → EReal := fun i =>
  rowProj (xr V c (i 0)) (gr V c) (br V c) (wc V c ⟨1024 + (i 1).val, by have h : (i 1).val < 1024 := (i 1).isLt; omega⟩)
def GV (c : Dev nD) : S4096x1024.Idx → EReal := fun i =>
  rowProj (xr V c (i 0)) (gr V c) (br V c) (wc V c ⟨2048 + (i 1).val, by have h : (i 1).val < 1024 := (i 1).isLt; omega⟩)

/-- The index maps over the grid: the x block and the three output blocks are block t of their arrays, the other
    windows the whole arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The x block at point t is rows 256·t … of the array. -/
theorem blk_x (c : Dev nD) (t : Fin cfg0.N) (p : Fin 256) (k : Fin 1024) (r : Fin 4096) (hr : r.val = t.val * 256 + p.val) :
    (iblk0 V c 0 t : Vec Ideal S256x1024 .f32) (ix2 p k) = xr V c r k := by
  obtain ⟨e0, e1, -⟩ := idx_facts t
  unfold iblk0 xr
  rw [View.read_apply]
  show (V c main_v0 : S4096x1024.Idx → EReal) _ = (V c main_v0 : S4096x1024.Idx → EReal) _
  refine congrArg (V c main_v0 : S4096x1024.Idx → EReal) ?_
  funext a
  apply Fin.ext
  match a with
  | ⟨0, _⟩ => show win0_0.index t 0 * 256 + 1 * p.val = r.val; rw [e0, hr]; omega
  | ⟨1, _⟩ => show win0_0.index t 1 * 1024 + 1 * k.val = k.val; rw [e1]; omega

theorem blk_g (c : Dev nD) (t : Fin cfg0.N) (k : Fin 1024) :
    (iblk0 V c 1 t : Vec Ideal S1x1024 .f32) (ix2 (0 : Fin 1) k) = gr V c k := by
  obtain ⟨-, -, e0, e1, -⟩ := idx_facts t
  unfold iblk0 gr
  rw [View.read_apply]
  show (V c main_v1 : S1x1024.Idx → EReal) _ = (V c main_v1 : S1x1024.Idx → EReal) _
  refine congrArg (V c main_v1 : S1x1024.Idx → EReal) ?_
  funext a
  apply Fin.ext
  match a with
  | ⟨0, _⟩ => show win0_1.index t 0 * 1 + 1 * 0 = 0; rw [e0]
  | ⟨1, _⟩ => show win0_1.index t 1 * 1024 + 1 * k.val = k.val; rw [e1]; omega

theorem blk_b (c : Dev nD) (t : Fin cfg0.N) (k : Fin 1024) :
    (iblk0 V c 2 t : Vec Ideal S1x1024 .f32) (ix2 (0 : Fin 1) k) = br V c k := by
  obtain ⟨-, -, -, -, e0, e1, -⟩ := idx_facts t
  unfold iblk0 br
  rw [View.read_apply]
  show (V c main_v2 : S1x1024.Idx → EReal) _ = (V c main_v2 : S1x1024.Idx → EReal) _
  refine congrArg (V c main_v2 : S1x1024.Idx → EReal) ?_
  funext a
  apply Fin.ext
  match a with
  | ⟨0, _⟩ => show win0_2.index t 0 * 1 + 1 * 0 = 0; rw [e0]
  | ⟨1, _⟩ => show win0_2.index t 1 * 1024 + 1 * k.val = k.val; rw [e1]; omega

theorem blk_w (c : Dev nD) (t : Fin cfg0.N) (k : Fin 1024) (q : Fin 3072) :
    (iblk0 V c 3 t : Vec Ideal S1024x3072 .bf16) (ix2 k q) = wc V c q k := by
  obtain ⟨-, -, -, -, -, -, e0, e1, -⟩ := idx_facts t
  unfold iblk0 wc
  rw [View.read_apply]
  show (V c main_v8 : S1024x3072.Idx → EReal) _ = (V c main_v8 : S1024x3072.Idx → EReal) _
  refine congrArg (V c main_v8 : S1024x3072.Idx → EReal) ?_
  funext a
  apply Fin.ext
  match a with
  | ⟨0, _⟩ => show win0_3.index t 0 * 1024 + 1 * k.val = k.val; rw [e0]; omega
  | ⟨1, _⟩ => show win0_3.index t 1 * 3072 + 1 * q.val = q.val; rw [e1]; omega

/-- An index of the array is in point t's block iff each coordinate is in the block's range. -/
theorem mem_blk4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v11_0).slice (win0_4.rect t)).set ↔ _
  rw [View.set_slice_whole, Rect.mem_set_unit]
  exact Iff.rfl
theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v11_1).slice (win0_5.rect t)).set ↔ _
  rw [View.set_slice_whole, Rect.mem_set_unit]
  exact Iff.rfl
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v11_2).slice (win0_6.rect t)).set ↔ _
  rw [View.set_slice_whole, Rect.mem_set_unit]
  exact Iff.rfl

/-- Row r lies in the block of point r / 256. -/
def ptOf (i : S4096x1024.Idx) : Fin cfg0.N := ⟨(i 0).val / 256, by
  have h : (i 0).val < 4096 := (i 0).isLt
  rw [show cfg0.N = 16 from N_0]; omega⟩

theorem cover4 (i : S4096x1024.Idx) : ∃ t : Fin cfg0.N, (cfg0.win 4).flush t = true ∧ i ∈ ((cfg0.win 4).blk t).view.set := by
  refine ⟨ptOf i, flush0_4 _, ?_⟩
  rw [mem_blk4]
  obtain ⟨-, -, -, -, -, -, -, -, e0, e1, -⟩ := idx_facts (ptOf i)
  have h0 : (i 0).val < 4096 := (i 0).isLt
  have h1 : (i 1).val < 1024 := (i 1).isLt
  intro a
  match a with
  | ⟨0, _⟩ => show win0_4.index (ptOf i) 0 * 256 ≤ (i 0).val ∧ (i 0).val < win0_4.index (ptOf i) 0 * 256 + 256; rw [e0]; show (i 0).val / 256 * 256 ≤ _ ∧ _ < (i 0).val / 256 * 256 + 256; omega
  | ⟨1, _⟩ => show win0_4.index (ptOf i) 1 * 1024 ≤ (i 1).val ∧ (i 1).val < win0_4.index (ptOf i) 1 * 1024 + 1024; rw [e1]; omega
theorem cover5 (i : S4096x1024.Idx) : ∃ t : Fin cfg0.N, (cfg0.win 5).flush t = true ∧ i ∈ ((cfg0.win 5).blk t).view.set := by
  refine ⟨ptOf i, flush0_5 _, ?_⟩
  rw [mem_blk5]
  obtain ⟨-, -, -, -, -, -, -, -, -, -, e0, e1, -⟩ := idx_facts (ptOf i)
  have h0 : (i 0).val < 4096 := (i 0).isLt
  have h1 : (i 1).val < 1024 := (i 1).isLt
  intro a
  match a with
  | ⟨0, _⟩ => show win0_5.index (ptOf i) 0 * 256 ≤ (i 0).val ∧ (i 0).val < win0_5.index (ptOf i) 0 * 256 + 256; rw [e0]; show (i 0).val / 256 * 256 ≤ _ ∧ _ < (i 0).val / 256 * 256 + 256; omega
  | ⟨1, _⟩ => show win0_5.index (ptOf i) 1 * 1024 ≤ (i 1).val ∧ (i 1).val < win0_5.index (ptOf i) 1 * 1024 + 1024; rw [e1]; omega
theorem cover6 (i : S4096x1024.Idx) : ∃ t : Fin cfg0.N, (cfg0.win 6).flush t = true ∧ i ∈ ((cfg0.win 6).blk t).view.set := by
  refine ⟨ptOf i, flush0_6 _, ?_⟩
  rw [mem_blk6]
  obtain ⟨-, -, -, -, -, -, -, -, -, -, -, -, e0, e1⟩ := idx_facts (ptOf i)
  have h0 : (i 0).val < 4096 := (i 0).isLt
  have h1 : (i 1).val < 1024 := (i 1).isLt
  intro a
  match a with
  | ⟨0, _⟩ => show win0_6.index (ptOf i) 0 * 256 ≤ (i 0).val ∧ (i 0).val < win0_6.index (ptOf i) 0 * 256 + 256; rw [e0]; show (i 0).val / 256 * 256 ≤ _ ∧ _ < (i 0).val / 256 * 256 + 256; omega
  | ⟨1, _⟩ => show win0_6.index (ptOf i) 1 * 1024 ≤ (i 1).val ∧ (i 1).val < win0_6.index (ptOf i) 1 * 1024 + 1024; rw [e1]; omega

/-- The block's entry (p, j) sits at row 256·t + p, column j of the array. -/
theorem emb4 (t : Fin cfg0.N) (p : Fin 256) (j : Fin 1024) (r : Fin 4096) (hr : r.val = t.val * 256 + p.val) :
    ((cfg0.win 4).blk t).view.emb (ix2 p j) = (ix2 r j : S4096x1024.Idx) := by
  obtain ⟨-, -, -, -, -, -, -, -, e0, e1, -⟩ := idx_facts t
  funext a
  apply Fin.ext
  match a with
  | ⟨0, _⟩ => show win0_4.index t 0 * 256 + 1 * p.val = r.val; rw [e0, hr]; omega
  | ⟨1, _⟩ => show win0_4.index t 1 * 1024 + 1 * j.val = j.val; rw [e1]; omega
theorem emb5 (t : Fin cfg0.N) (p : Fin 256) (j : Fin 1024) (r : Fin 4096) (hr : r.val = t.val * 256 + p.val) :
    ((cfg0.win 5).blk t).view.emb (ix2 p j) = (ix2 r j : S4096x1024.Idx) := by
  obtain ⟨-, -, -, -, -, -, -, -, -, -, e0, e1, -⟩ := idx_facts t
  funext a
  apply Fin.ext
  match a with
  | ⟨0, _⟩ => show win0_5.index t 0 * 256 + 1 * p.val = r.val; rw [e0, hr]; omega
  | ⟨1, _⟩ => show win0_5.index t 1 * 1024 + 1 * j.val = j.val; rw [e1]; omega
theorem emb6 (t : Fin cfg0.N) (p : Fin 256) (j : Fin 1024) (r : Fin 4096) (hr : r.val = t.val * 256 + p.val) :
    ((cfg0.win 6).blk t).view.emb (ix2 p j) = (ix2 r j : S4096x1024.Idx) := by
  obtain ⟨-, -, -, -, -, -, -, -, -, -, -, -, e0, e1⟩ := idx_facts t
  funext a
  apply Fin.ext
  match a with
  | ⟨0, _⟩ => show win0_6.index t 0 * 256 + 1 * p.val = r.val; rw [e0, hr]; omega
  | ⟨1, _⟩ => show win0_6.index t 1 * 1024 + 1 * j.val = j.val; rw [e1]; omega

/-- The rows of the blocks are the rows of the arrays. -/
theorem rows_eq (c : Dev nD) (t : Fin cfg0.N) (p : Fin 256) (r : Fin 4096) (hr : r.val = t.val * 256 + p.val) (q : Fin 3072) :
    rowProj (Proj0.brow (iblk0 V c 0 t) p) (Proj0.urow (iblk0 V c 1 t)) (Proj0.urow (iblk0 V c 2 t)) (fun k => (iblk0 V c 3 t : Vec Ideal S1024x3072 .bf16) (ix2 k q))
      = rowProj (xr V c r) (gr V c) (br V c) (wc V c q) := by
  have h0 : Proj0.brow (iblk0 V c 0 t) p = xr V c r := funext fun k => blk_x V c t p k r hr
  have h1 : Proj0.urow (iblk0 V c 1 t) = gr V c := funext fun k => blk_g V c t k
  have h2 : Proj0.urow (iblk0 V c 2 t) = br V c := funext fun k => blk_b V c t k
  have h3 : (fun k => (iblk0 V c 3 t : Vec Ideal S1024x3072 .bf16) (ix2 k q)) = wc V c q := funext fun k => blk_w V c t k q
  rw [h0, h1, h2, h3]

/-- What point t writes back into output 4 is block t of the array function. -/
theorem flushed4_eq (c : Dev nD) (t : Fin cfg0.N) :
    (dat0 V c).flushed 4 t = ((cfg0.win 4).blk t).view.read (Elt Ideal) (GQ V c) := by
  have ht : t.val < 16 := Nat.lt_of_lt_of_eq t.isLt (show cfg0.N = 16 from N_0)
  show (cfg0.win 4).cut (grid0.coords t) ((dat0 V c).after 4 t) = _
  rw [after0_4]
  unfold out0_4
  rw [View.canon_unit_zero hz]
  simp only [View.ld_unit_zero (S := S256x1024) hz, View.ld_unit_zero (S := S1x1024) hz, View.ld_unit_zero (S := S1024x3072) hz]
  funext y
  obtain ⟨p, j, rfl⟩ : ∃ (p : Fin 256) (j : Fin 1024), y = ix2 p j := ⟨y 0, y 1, eq_ix2 y⟩
  show Hand.stQ (iblk0 V c 0 t) (iblk0 V c 1 t) (iblk0 V c 2 t) (iblk0 V c 3 t) (ix2 p j) = GQ V c (((cfg0.win 4).blk t).view.emb (ix2 p j))
  rw [emb4 t p j (⟨t.val * 256 + p.val, by omega⟩ : Fin 4096) rfl,
    Proj0.stQ_apply (iblk0 V c 0 t) (iblk0 V c 1 t) (iblk0 V c 2 t) (iblk0 V c 3 t) p j,
    rows_eq V c t p (⟨t.val * 256 + p.val, by omega⟩ : Fin 4096) rfl (⟨j.val, by omega⟩ : Fin 3072)]
  rfl

/-- The array after the region. -/
theorem final4 (c : Dev nD) : (dat0 V c).arrAt 4 cfg0.N = GQ V c :=
  (dat0 V c).arrAt_eq_of_cover 4 (GQ V c) (fun t _ => flushed4_eq V c t) cover4

/-- What point t writes back into output 5 is block t of the array function. -/
theorem flushed5_eq (c : Dev nD) (t : Fin cfg0.N) :
    (dat0 V c).flushed 5 t = ((cfg0.win 5).blk t).view.read (Elt Ideal) (GK V c) := by
  have ht : t.val < 16 := Nat.lt_of_lt_of_eq t.isLt (show cfg0.N = 16 from N_0)
  show (cfg0.win 5).cut (grid0.coords t) ((dat0 V c).after 5 t) = _
  rw [after0_5]
  unfold out0_5
  rw [View.canon_unit_zero hz]
  simp only [View.ld_unit_zero (S := S256x1024) hz, View.ld_unit_zero (S := S1x1024) hz, View.ld_unit_zero (S := S1024x3072) hz]
  funext y
  obtain ⟨p, j, rfl⟩ : ∃ (p : Fin 256) (j : Fin 1024), y = ix2 p j := ⟨y 0, y 1, eq_ix2 y⟩
  show Hand.stK (iblk0 V c 0 t) (iblk0 V c 1 t) (iblk0 V c 2 t) (iblk0 V c 3 t) (ix2 p j) = GK V c (((cfg0.win 5).blk t).view.emb (ix2 p j))
  rw [emb5 t p j (⟨t.val * 256 + p.val, by omega⟩ : Fin 4096) rfl,
    Proj0.stK_apply (iblk0 V c 0 t) (iblk0 V c 1 t) (iblk0 V c 2 t) (iblk0 V c 3 t) p j,
    rows_eq V c t p (⟨t.val * 256 + p.val, by omega⟩ : Fin 4096) rfl (⟨1024 + j.val, by omega⟩ : Fin 3072)]
  rfl

/-- The array after the region. -/
theorem final5 (c : Dev nD) : (dat0 V c).arrAt 5 cfg0.N = GK V c :=
  (dat0 V c).arrAt_eq_of_cover 5 (GK V c) (fun t _ => flushed5_eq V c t) cover5

/-- What point t writes back into output 6 is block t of the array function. -/
theorem flushed6_eq (c : Dev nD) (t : Fin cfg0.N) :
    (dat0 V c).flushed 6 t = ((cfg0.win 6).blk t).view.read (Elt Ideal) (GV V c) := by
  have ht : t.val < 16 := Nat.lt_of_lt_of_eq t.isLt (show cfg0.N = 16 from N_0)
  show (cfg0.win 6).cut (grid0.coords t) ((dat0 V c).after 6 t) = _
  rw [after0_6]
  unfold out0_6
  rw [View.canon_unit_zero hz]
  simp only [View.ld_unit_zero (S := S256x1024) hz, View.ld_unit_zero (S := S1x1024) hz, View.ld_unit_zero (S := S1024x3072) hz]
  funext y
  obtain ⟨p, j, rfl⟩ : ∃ (p : Fin 256) (j : Fin 1024), y = ix2 p j := ⟨y 0, y 1, eq_ix2 y⟩
  show Hand.stV (iblk0 V c 0 t) (iblk0 V c 1 t) (iblk0 V c 2 t) (iblk0 V c 3 t) (ix2 p j) = GV V c (((cfg0.win 6).blk t).view.emb (ix2 p j))
  rw [emb6 t p j (⟨t.val * 256 + p.val, by omega⟩ : Fin 4096) rfl,
    Proj0.stV_apply (iblk0 V c 0 t) (iblk0 V c 1 t) (iblk0 V c 2 t) (iblk0 V c 3 t) p j,
    rows_eq V c t p (⟨t.val * 256 + p.val, by omega⟩ : Fin 4096) rfl (⟨2048 + j.val, by omega⟩ : Fin 3072)]
  rfl

/-- The array after the region. -/
theorem final6 (c : Dev nD) : (dat0 V c).arrAt 6 cfg0.N = GV V c :=
  (dat0 V c).arrAt_eq_of_cover 6 (GV V c) (fun t _ => flushed6_eq V c t) cover6

end Cert.KernelIdeal.Arr0

end
-- ==== Proof.HostReads.lean ====
/-
  What the host operations before the first region leave, read at an entry.

  x is re-laid as 4096 rows (row b·2048 + n is row n of batch b); the scale, the shift and the bias become 1 × 1024
  arrays; the three projection matrices are transposed and put side by side into a 1024 × 3072 array, so that its
  column j, 1024 + j, 2048 + j is row j of the query, key, value matrix; the output matrix is transposed. A change of
  float format is the identity.
-/
import proofs.«130152_j1030792151557_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostReads

open Idealize.ShloMosaic Idealize.ShloMosaic.ValueIdx Idealize.ShloMosaic.TcCoe Idealize.SL.Sem Cert.KernelIdeal Cert.KernelIdeal.Gen

/-- A host operation over a literal family of three references: its result with each operand's contents at its own
    reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

variable (V0 : Valuation τ sig (Elt Ideal))

/-- Three 1024 × 1024 matrices side by side. -/
def cat3 (b4 b5 b6 : S1024x1024.Idx → EReal) : S1024x3072.Idx → EReal :=
  truncf (F := Ideal) (φ := .f32) .bf16 (concatenate S1024x3072 1
          [⟨S1024x1024, b4⟩, ⟨S1024x1024, b5⟩, ⟨S1024x1024, b6⟩]
          concatenates_S1024x1024_S1024x1024_S1024x1024_S1024x3072_d1) bitsLt_bf16_f32

/-- Three matrices, each transposed, side by side. -/
def catW (a3 a4 a5 : S1024x1024.Idx → EReal) : S1024x3072.Idx → EReal :=
  cat3 (transpose S1024x1024 [1, 0] a3 transposes_S1024x1024_S1024x1024_1_0)
    (transpose S1024x1024 [1, 0] a4 transposes_S1024x1024_S1024x1024_1_0)
    (transpose S1024x1024 [1, 0] a5 transposes_S1024x1024_S1024x1024_1_0)

/-- The weights as the first region finds them: the three transposed matrices side by side. -/
theorem v8_eq :
    StableHlo.after (hostOps0 (F := Ideal)) V0 (Proc.devRef .tc main_v8)
      = catW (V0 (Proc.devRef .tc main_arg3)) (V0 (Proc.devRef .tc main_arg4)) (V0 (Proc.devRef .tc main_arg5)) := by
  have e4 : (StableHlo.after ((hostOps0 (F := Ideal)).take 7) V0 (Proc.devRef .tc main_v4) : S1024x1024.Idx → EReal)
      = transpose S1024x1024 [1, 0] (V0 (Proc.devRef .tc main_arg3)) transposes_S1024x1024_S1024x1024_1_0 := by
    dsimp only [hostOps0, List.take]; after_results
  have e5 : (StableHlo.after ((hostOps0 (F := Ideal)).take 7) V0 (Proc.devRef .tc main_v5) : S1024x1024.Idx → EReal)
      = transpose S1024x1024 [1, 0] (V0 (Proc.devRef .tc main_arg4)) transposes_S1024x1024_S1024x1024_1_0 := by
    dsimp only [hostOps0, List.take]; after_results
  have e6 : (StableHlo.after ((hostOps0 (F := Ideal)).take 7) V0 (Proc.devRef .tc main_v6) : S1024x1024.Idx → EReal)
      = transpose S1024x1024 [1, 0] (V0 (Proc.devRef .tc main_arg5)) transposes_S1024x1024_S1024x1024_1_0 := by
    dsimp only [hostOps0, List.take]; after_results
  have hsplit : StableHlo.after (hostOps0 (F := Ideal)) V0
      = StableHlo.after ((hostOps0 (F := Ideal)).drop 7) (StableHlo.after ((hostOps0 (F := Ideal)).take 7) V0) := rfl
  rw [hsplit]
  generalize StableHlo.after ((hostOps0 (F := Ideal)).take 7) V0 = X at e4 e5 e6 ⊢
  dsimp only [hostOps0, List.drop]
  simp only [StableHlo.after_cons, StableHlo.after_nil]
  rw [StableHlo.unary_result_ne]; rotate_left; decide
  rw [StableHlo.unary_result_ne]; rotate_left; decide
  rw [StableHlo.unary_result, StableHlo.nary_result]
  show cat3 (X (Proc.devRef .tc main_v4)) (X (Proc.devRef .tc main_v5)) (X (Proc.devRef .tc main_v6)) = _
  rw [e4, e5, e6]; rfl

/-- Columns j, 1024 + j and 2048 + j of three matrices side by side are column j of the first, second and third. -/
theorem cat3_0 (b4 b5 b6 : S1024x1024.Idx → EReal) (k j : Fin 1024) :
    cat3 b4 b5 b6 (ix2 k (⟨j.val, by omega⟩ : Fin 3072)) = b4 (ix2 k j) :=
  concatenate_apply_piece (t := S1024x3072) (1 : Fin 2) [⟨S1024x1024, b4⟩, ⟨S1024x1024, b5⟩, ⟨S1024x1024, b6⟩]
    concatenates_S1024x1024_S1024x1024_S1024x1024_S1024x3072_d1 (ix2 k (⟨j.val, by omega⟩ : Fin 3072)) 0 (by show 0 < 3; omega)
    S1024x1024 b4 rfl rfl 0 rfl (ix2 k j)
    (fun b hb => match b with
      | ⟨0, _⟩ => rfl
      | ⟨1, _⟩ => absurd rfl hb)
    (Nat.zero_add _)

theorem cat3_1 (b4 b5 b6 : S1024x1024.Idx → EReal) (k j : Fin 1024) :
    cat3 b4 b5 b6 (ix2 k (⟨1024 + j.val, by omega⟩ : Fin 3072)) = b5 (ix2 k j) :=
  concatenate_apply_piece (t := S1024x3072) (1 : Fin 2) [⟨S1024x1024, b4⟩, ⟨S1024x1024, b5⟩, ⟨S1024x1024, b6⟩]
    concatenates_S1024x1024_S1024x1024_S1024x1024_S1024x3072_d1 (ix2 k (⟨1024 + j.val, by omega⟩ : Fin 3072)) 1 (by show 1 < 3; omega)
    S1024x1024 b5 rfl rfl 1024 rfl (ix2 k j)
    (fun b hb => match b with
      | ⟨0, _⟩ => rfl
      | ⟨1, _⟩ => absurd rfl hb)
    rfl

theorem cat3_2 (b4 b5 b6 : S1024x1024.Idx → EReal) (k j : Fin 1024) :
    cat3 b4 b5 b6 (ix2 k (⟨2048 + j.val, by omega⟩ : Fin 3072)) = b6 (ix2 k j) :=
  concatenate_apply_piece (t := S1024x3072) (1 : Fin 2) [⟨S1024x1024, b4⟩, ⟨S1024x1024, b5⟩, ⟨S1024x1024, b6⟩]
    concatenates_S1024x1024_S1024x1024_S1024x1024_S1024x3072_d1 (ix2 k (⟨2048 + j.val, by omega⟩ : Fin 3072)) 2 (by show 2 < 3; omega)
    S1024x1024 b6 rfl rfl 2048 rfl (ix2 k j)
    (fun b hb => match b with
      | ⟨0, _⟩ => rfl
      | ⟨1, _⟩ => absurd rfl hb)
    rfl

/-- With each matrix transposed first: column j of the first third is row j of the first matrix, and so on. -/
theorem catW_q (a3 a4 a5 : S1024x1024.Idx → EReal) (k j : Fin 1024) :
    catW a3 a4 a5 (ix2 k (⟨j.val, by omega⟩ : Fin 3072)) = a3 (ix2 j k) :=
  (cat3_0 _ _ _ k j).trans (transpose_ix2_apply a3 _ k j)
theorem catW_k (a3 a4 a5 : S1024x1024.Idx → EReal) (k j : Fin 1024) :
    catW a3 a4 a5 (ix2 k (⟨1024 + j.val, by omega⟩ : Fin 3072)) = a4 (ix2 j k) :=
  (cat3_1 _ _ _ k j).trans (transpose_ix2_apply a4 _ k j)
theorem catW_v (a3 a4 a5 : S1024x1024.Idx → EReal) (k j : Fin 1024) :
    catW a3 a4 a5 (ix2 k (⟨2048 + j.val, by omega⟩ : Fin 3072)) = a5 (ix2 j k) :=
  (cat3_2 _ _ _ k j).trans (transpose_ix2_apply a5 _ k j)

/-- The rows of x, the scale, the shift, the bias and the output weights as the regions find them. -/
theorem v0_apply (b : Fin 2) (n : Fin 2048) (k : Fin 1024) :
    (StableHlo.after (hostOps0 (F := Ideal)) V0 (Proc.devRef .tc main_v0) : S4096x1024.Idx → EReal)
        (ix2 (⟨b.val * 2048 + n.val, by omega⟩ : Fin 4096) k)
      = (V0 (Proc.devRef .tc main_arg0) : S2x2048x1024.Idx → EReal) (ix3 b n k) := by
  have e : (StableHlo.after (hostOps0 (F := Ideal)) V0 (Proc.devRef .tc main_v0) : S4096x1024.Idx → EReal)
      = shapeCast S4096x1024 (V0 (Proc.devRef .tc main_arg0) : S2x2048x1024.Idx → EReal) shapeCasts_S2x2048x1024_S4096x1024 := by
    after_results; rfl
  rw [e]
  refine shapeCast_apply _ _ _ _ ?_
  show (S2x2048x1024.rowMajor (ix3 b n k)).val = (S4096x1024.rowMajor (ix2 (⟨b.val * 2048 + n.val, by omega⟩ : Fin 4096) k)).val
  rw [Shape.rowMajor_val_three, Shape.rowMajor_val_two]
  show (b.val * 2048 + n.val) * 1024 + k.val = (b.val * 2048 + n.val) * 1024 + k.val
  rfl

theorem v1_apply (k : Fin 1024) :
    (StableHlo.after (hostOps0 (F := Ideal)) V0 (Proc.devRef .tc main_v1) : S1x1024.Idx → EReal) (ix2 (0 : Fin 1) k)
      = (V0 (Proc.devRef .tc main_arg1) : S1024.Idx → EReal) (ix1 k) := by
  have e : (StableHlo.after (hostOps0 (F := Ideal)) V0 (Proc.devRef .tc main_v1) : S1x1024.Idx → EReal)
      = shapeCast S1x1024 (V0 (Proc.devRef .tc main_arg1) : S1024.Idx → EReal) shapeCasts_S1024_S1x1024 := by
    after_results; rfl
  rw [e]; exact shapeCast_a_1a_apply _ _ 0 k

theorem v2_apply (k : Fin 1024) :
    (StableHlo.after (hostOps0 (F := Ideal)) V0 (Proc.devRef .tc main_v2) : S1x1024.Idx → EReal) (ix2 (0 : Fin 1) k)
      = (V0 (Proc.devRef .tc main_arg2) : S1024.Idx → EReal) (ix1 k) := by
  have e : (StableHlo.after (hostOps0 (F := Ideal)) V0 (Proc.devRef .tc main_v2) : S1x1024.Idx → EReal)
      = shapeCast S1x1024 (V0 (Proc.devRef .tc main_arg2) : S1024.Idx → EReal) shapeCasts_S1024_S1x1024 := by
    after_results; rfl
  rw [e]; exact shapeCast_a_1a_apply _ _ 0 k

theorem v3_apply (k : Fin 1024) :
    (StableHlo.after (hostOps0 (F := Ideal)) V0 (Proc.devRef .tc main_v3) : S1x1024.Idx → EReal) (ix2 (0 : Fin 1) k)
      = (V0 (Proc.devRef .tc main_arg7) : S1024.Idx → EReal) (ix1 k) := by
  have e : (StableHlo.after (hostOps0 (F := Ideal)) V0 (Proc.devRef .tc main_v3) : S1x1024.Idx → EReal)
      = shapeCast S1x1024 (V0 (Proc.devRef .tc main_arg7) : S1024.Idx → EReal) shapeCasts_S1024_S1x1024 := by
    after_results; rfl
  rw [e]; exact shapeCast_a_1a_apply _ _ 0 k

theorem v10_apply (c j : Fin 1024) :
    (StableHlo.after (hostOps0 (F := Ideal)) V0 (Proc.devRef .tc main_v10) : S1024x1024.Idx → EReal) (ix2 c j)
      = (V0 (Proc.devRef .tc main_arg6) : S1024x1024.Idx → EReal) (ix2 j c) := by
  have e : (StableHlo.after (hostOps0 (F := Ideal)) V0 (Proc.devRef .tc main_v10) : S1024x1024.Idx → EReal)
      = truncf (F := Ideal) (φ := .f32) .bf16 (transpose S1024x1024 [1, 0] (V0 (Proc.devRef .tc main_arg6) : S1024x1024.Idx → EReal) transposes_S1024x1024_S1024x1024_1_0) bitsLt_bf16_f32 := by
    after_results
  rw [e]; exact transpose_ix2_apply _ _ c j

end Cert.KernelIdeal.HostReads

end
-- ==== Proof.KValue.lean ====
/-
  The idealized kernel's result array is the specification of its arguments.

  Through the host operations the first region finds the rows of x, the scale and shift rows and the three projection
  matrices side by side, so its three output arrays hold the query (times 1/8), key and value rows of every batch row.
  The second region finds those arrays, the transposed output matrix and the bias, so row b·2048 + n of its output is
  the specification's output row of batch b, row n; the last host operation re-lays the 4096 rows as 2 × 2048.
-/
import proofs.«130152_j1030792151557_2_alg».proof.Proof.FrameKI
import proofs.«130152_j1030792151557_2_alg».proof.Proof.Arr1
import proofs.«130152_j1030792151557_2_alg».proof.Proof.Arr0
import proofs.«130152_j1030792151557_2_alg».proof.Proof.HostReads
import proofs.«130152_j1030792151557_2_alg».proof.Proof.Spec
import Idealize.ShloMosaic.Lib.StableHlo.Run

noncomputable section

namespace Cert.KernelIdeal.KValue

open Idealize.ShloMosaic Idealize.ShloMosaic.ValueIdx Idealize.ShloMosaic.TcCoe Idealize.SL.Sem
open Cert.KernelIdeal Cert.KernelIdeal.Gen Cert.KernelIdeal.Hand Cert.KernelIdeal.Arr0 Cert.Spec

/-- Row b·2048 + n of the 4096 rows. -/
def rowOf (b : Fin 2) (n : Fin 2048) : Fin 4096 := ⟨b.val * 2048 + n.val, by omega⟩

/-- Arrays holding the query, key and value rows, the transposed output matrix and the bias give the specification's
    output row. -/
theorem bridge (a0 : A3) (a1 a2 : A1) (a3 a4 a5 a6 : A2) (a7 : A1)
    (Q K W : (⟨2, ![4096, 1024]⟩ : Shape).Idx → EReal) (woT : (⟨2, ![1024, 1024]⟩ : Shape).Idx → EReal)
    (bo2 : (⟨2, ![1, 1024]⟩ : Shape).Idx → EReal)
    (hQ : ∀ b n j, Q (ix2 (rowOf b n) j) = qrow a0 a1 a2 a3 b n j)
    (hK : ∀ b n j, K (ix2 (rowOf b n) j) = krow a0 a1 a2 a4 b n j)
    (hW : ∀ b n j, W (ix2 (rowOf b n) j) = vrow' a0 a1 a2 a5 b n j)
    (hwo : ∀ c j, woT (ix2 c j) = a6 (ix2 j c)) (hbo : ∀ j, bo2 (ix2 (0 : Fin 1) j) = a7 (ix1 j))
    (b : Fin 2) (n : Fin 2048) (j : Fin 1024) :
    outRow (fun cc => Q (ix2 (rowOf b n) cc))
        (fun n' cc => K (ix2 (⟨(rowOf b n).val / 2048 * 2048 + n'.val, by have := (rowOf b n).isLt; omega⟩ : Fin 4096) cc))
        (fun n' cc => W (ix2 (⟨(rowOf b n).val / 2048 * 2048 + n'.val, by have := (rowOf b n).isLt; omega⟩ : Fin 4096) cc))
        (fun j' cc => woT (ix2 cc j')) (fun j' => bo2 (ix2 (0 : Fin 1) j')) j
      = G a0 a1 a2 a3 a4 a5 a6 a7 (ix3 b n j) := by
  have hrow : ∀ n' : Fin 2048, (⟨(rowOf b n).val / 2048 * 2048 + n'.val, by have := (rowOf b n).isLt; omega⟩ : Fin 4096) = rowOf b n' := fun n' =>
    Fin.ext (by show (b.val * 2048 + n.val) / 2048 * 2048 + n'.val = b.val * 2048 + n'.val; omega)
  have e1 : (fun cc => Q (ix2 (rowOf b n) cc)) = qrow a0 a1 a2 a3 b n := funext fun cc => hQ b n cc
  have e2 : (fun n' cc => K (ix2 (⟨(rowOf b n).val / 2048 * 2048 + n'.val, by have := (rowOf b n).isLt; omega⟩ : Fin 4096) cc)) = krow a0 a1 a2 a4 b :=
    funext fun n' => funext fun cc => by rw [hrow n']; exact hK b n' cc
  have e3 : (fun n' cc => W (ix2 (⟨(rowOf b n).val / 2048 * 2048 + n'.val, by have := (rowOf b n).isLt; omega⟩ : Fin 4096) cc)) = vrow' a0 a1 a2 a5 b :=
    funext fun n' => funext fun cc => by rw [hrow n']; exact hW b n' cc
  have e4 : (fun j' cc => woT (ix2 cc j')) = mrow a6 := funext fun j' => funext fun cc => hwo cc j'
  have e5 : (fun j' => bo2 (ix2 (0 : Fin 1) j')) = vrow a7 := funext fun j' => hbo j'
  rw [e1, e2, e3, e4, e5]
  rfl

variable (m : (ℓ : Loc nD τ sig) → Buf (Elt Ideal) ℓ) (ρ : Dev nD → PrngReg)

/-- The rows the first region finds are the argument's rows. -/
theorem xr_V1 (c : Dev nD) (b : Fin 2) (n : Fin 2048) :
    xr (V1 m ρ) c (rowOf b n) = xrow (m ((c : Thread nD τ).loc main_arg0)) b n :=
  funext fun k => HostReads.v0_apply (W0 m ρ c) b n k
theorem gr_V1 (c : Dev nD) : gr (V1 m ρ) c = vrow (m ((c : Thread nD τ).loc main_arg1)) :=
  funext fun k => HostReads.v1_apply (W0 m ρ c) k
theorem br_V1 (c : Dev nD) : br (V1 m ρ) c = vrow (m ((c : Thread nD τ).loc main_arg2)) :=
  funext fun k => HostReads.v2_apply (W0 m ρ c) k
theorem wq_V1 (c : Dev nD) (j : Fin 1024) : wc (V1 m ρ) c (⟨j.val, by omega⟩ : Fin 3072) = mrow (m ((c : Thread nD τ).loc main_arg3)) j :=
  funext fun k => by
    show (StableHlo.after (hostOps0 (F := Ideal)) (W0 m ρ c) (Proc.devRef .tc main_v8) : S1024x3072.Idx → EReal) (ix2 k (⟨j.val, by omega⟩ : Fin 3072)) = _
    rw [HostReads.v8_eq]; exact HostReads.catW_q _ _ _ k j
theorem wk_V1 (c : Dev nD) (j : Fin 1024) : wc (V1 m ρ) c (⟨1024 + j.val, by omega⟩ : Fin 3072) = mrow (m ((c : Thread nD τ).loc main_arg4)) j :=
  funext fun k => by
    show (StableHlo.after (hostOps0 (F := Ideal)) (W0 m ρ c) (Proc.devRef .tc main_v8) : S1024x3072.Idx → EReal) (ix2 k (⟨1024 + j.val, by omega⟩ : Fin 3072)) = _
    rw [HostReads.v8_eq]; exact HostReads.catW_k _ _ _ k j
theorem wv_V1 (c : Dev nD) (j : Fin 1024) : wc (V1 m ρ) c (⟨2048 + j.val, by omega⟩ : Fin 3072) = mrow (m ((c : Thread nD τ).loc main_arg5)) j :=
  funext fun k => by
    show (StableHlo.after (hostOps0 (F := Ideal)) (W0 m ρ c) (Proc.devRef .tc main_v8) : S1024x3072.Idx → EReal) (ix2 k (⟨2048 + j.val, by omega⟩ : Fin 3072)) = _
    rw [HostReads.v8_eq]; exact HostReads.catW_v _ _ _ k j

/-- The first region's three arrays hold the query, key and value rows. -/
theorem GQ_V1 (c : Dev nD) (b : Fin 2) (n : Fin 2048) (j : Fin 1024) :
    GQ (V1 m ρ) c (ix2 (rowOf b n) j) = qrow (m ((c : Thread nD τ).loc main_arg0)) (m ((c : Thread nD τ).loc main_arg1))
      (m ((c : Thread nD τ).loc main_arg2)) (m ((c : Thread nD τ).loc main_arg3)) b n j := by
  show rowProj (xr (V1 m ρ) c (rowOf b n)) (gr (V1 m ρ) c) (br (V1 m ρ) c) (wc (V1 m ρ) c (⟨j.val, by omega⟩ : Fin 3072)) * cscale = _
  rw [xr_V1, gr_V1, br_V1, wq_V1]; rfl
theorem GK_V1 (c : Dev nD) (b : Fin 2) (n : Fin 2048) (j : Fin 1024) :
    GK (V1 m ρ) c (ix2 (rowOf b n) j) = krow (m ((c : Thread nD τ).loc main_arg0)) (m ((c : Thread nD τ).loc main_arg1))
      (m ((c : Thread nD τ).loc main_arg2)) (m ((c : Thread nD τ).loc main_arg4)) b n j := by
  show rowProj (xr (V1 m ρ) c (rowOf b n)) (gr (V1 m ρ) c) (br (V1 m ρ) c) (wc (V1 m ρ) c (⟨1024 + j.val, by omega⟩ : Fin 3072)) = _
  rw [xr_V1, gr_V1, br_V1, wk_V1]; rfl
theorem GV_V1 (c : Dev nD) (b : Fin 2) (n : Fin 2048) (j : Fin 1024) :
    GV (V1 m ρ) c (ix2 (rowOf b n) j) = vrow' (m ((c : Thread nD τ).loc main_arg0)) (m ((c : Thread nD τ).loc main_arg1))
      (m ((c : Thread nD τ).loc main_arg2)) (m ((c : Thread nD τ).loc main_arg5)) b n j := by
  show rowProj (xr (V1 m ρ) c (rowOf b n)) (gr (V1 m ρ) c) (br (V1 m ρ) c) (wc (V1 m ρ) c (⟨2048 + j.val, by omega⟩ : Fin 3072)) = _
  rw [xr_V1, gr_V1, br_V1, wv_V1]; rfl

/-- What the second region finds. -/
theorem V2_q (c : Dev nD) : (V2 m ρ c main_v11_0 : S4096x1024.Idx → EReal) = GQ (V1 m ρ) c :=
  (W2_main_v11_0 m ρ c).trans (final4 (V1 m ρ) c)
theorem V2_k (c : Dev nD) : (V2 m ρ c main_v11_1 : S4096x1024.Idx → EReal) = GK (V1 m ρ) c :=
  (W2_main_v11_1 m ρ c).trans (final5 (V1 m ρ) c)
theorem V2_v (c : Dev nD) : (V2 m ρ c main_v11_2 : S4096x1024.Idx → EReal) = GV (V1 m ρ) c :=
  (W2_main_v11_2 m ρ c).trans (final6 (V1 m ρ) c)
theorem V2_wo (c : Dev nD) (cc j : Fin 1024) :
    (V2 m ρ c main_v10 : S1024x1024.Idx → EReal) (ix2 cc j) = (m ((c : Thread nD τ).loc main_arg6) : S1024x1024.Idx → EReal) (ix2 j cc) := by
  rw [show V2 m ρ c main_v10 = W1 m ρ c (Proc.devRef .tc main_v10) from W2_of_ne m ρ c main_v10 (by decide)]
  exact HostReads.v10_apply (W0 m ρ c) cc j
theorem V2_bo (c : Dev nD) (j : Fin 1024) :
    (V2 m ρ c main_v3 : S1x1024.Idx → EReal) (ix2 (0 : Fin 1) j) = (m ((c : Thread nD τ).loc main_arg7) : S1024.Idx → EReal) (ix1 j) := by
  rw [show V2 m ρ c main_v3 = W1 m ρ c (Proc.devRef .tc main_v3) from W2_of_ne m ρ c main_v3 (by decide)]
  exact HostReads.v3_apply (W0 m ρ c) j

/-- THE RESULT: after the run the result buffer holds the specification of the arguments. -/
theorem kernel_value (c : Dev nD) :
    (W4 m ρ c (Proc.devRef .tc main_v13) : S2x2048x1024.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have e : (W4 m ρ c (Proc.devRef .tc main_v13) : S2x2048x1024.Idx → EReal)
      = shapeCast S2x2048x1024 (W3 m ρ c (Proc.devRef .tc main_v12) : S4096x1024.Idx → EReal) shapeCasts_S4096x1024_S2x2048x1024 := by
    show StableHlo.after (hostOps2 (F := Ideal)) (W3 m ρ c) (Proc.devRef .tc main_v13) = _
    after_results; rfl
  funext i
  obtain ⟨b, n, j, rfl⟩ : ∃ (b : Fin 2) (n : Fin 2048) (j : Fin 1024), i = ix3 b n j := ⟨i 0, i 1, i 2, eq_ix3 i⟩
  rw [e, shapeCast_apply _ _ (ix3 b n j) (ix2 (rowOf b n) j) (by
      show (S4096x1024.rowMajor (ix2 (rowOf b n) j)).val = (S2x2048x1024.rowMajor (ix3 b n j)).val
      rw [Shape.rowMajor_val_two, Shape.rowMajor_val_three]; rfl),
    W3_main_v12, Arr1.arr1 (V2 m ρ) c]
  exact bridge _ _ _ _ _ _ _ _ (V2 m ρ c main_v11_0) (V2 m ρ c main_v11_1) (V2 m ρ c main_v11_2) (V2 m ρ c main_v10) (V2 m ρ c main_v3)
    (fun b n j => by rw [V2_q]; exact GQ_V1 m ρ c b n j)
    (fun b n j => by rw [V2_k]; exact GK_V1 m ρ c b n j)
    (fun b n j => by rw [V2_v]; exact GV_V1 m ρ c b n j)
    (fun cc j => V2_wo m ρ c cc j) (fun j => V2_bo m ρ c j) b n j

end Cert.KernelIdeal.KValue

end
-- ==== Proof.lean ====
/-
  Multi-head self-attention in two fused kernels against its plain reference, over the extended reals.

  Both programs normalise every row of x (mean, variance, 1/√(variance + ε), scale γ, shift β), project it onto
  queries (times 1/8), keys and values, and for each of sixteen heads of 64 columns weight the value rows by
  exp(score − row maximum) over its row sum, put the heads side by side, project with the output matrix and add the
  bias. The kernel does the three projections as one product with the three transposed matrices side by side and cuts
  the product in three; it works on blocks of 256 rows and keeps the rows in row-major order, where the reference
  splits and transposes the head axis: the two results are the same sums, indexed differently, so no finiteness of the
  inputs is used. The reference also takes the maximum of −∞ with the row maximum, which changes nothing. A change of
  float format is the identity.

  The frames of the two kernel programs run the two regions one after the other: each body is a few loads, pure
  arithmetic and whole-block stores, so each output block is a function of the input blocks at the point, and each
  output array is covered by its blocks. The reference's frame is its run with the result dropped. The idealization
  rewrote nothing.
-/
import proofs.«130152_j1030792151557_2_alg».proof.Defs
import proofs.«130152_j1030792151557_2_alg».proof.Proof.Gen.Kernel
import proofs.«130152_j1030792151557_2_alg».proof.Proof.Gen.KernelIdeal
import proofs.«130152_j1030792151557_2_alg».proof.Proof.Gen.ReferenceIdeal
import proofs.«130152_j1030792151557_2_alg».proof.Proof.Gen.ReferenceIdeal.Run
import proofs.«130152_j1030792151557_2_alg».proof.Proof.Gen.ReferenceIdeal.Read
import proofs.«130152_j1030792151557_2_alg».proof.Proof.Gen.Pre_finite_inputs
import proofs.«130152_j1030792151557_2_alg».proof.Proof.FrameK
import proofs.«130152_j1030792151557_2_alg».proof.Proof.FrameKI
import proofs.«130152_j1030792151557_2_alg».proof.Proof.RefFrame
import proofs.«130152_j1030792151557_2_alg».proof.Proof.RefValue
import proofs.«130152_j1030792151557_2_alg».proof.Proof.KValue
import Idealize.ShloMosaic.Adequacy
import Idealize.ShloMosaic.Init

noncomputable section

namespace Cert.Proof

open Idealize.ShloMosaic Idealize.SL.Sem

/-- The two kernel programs run, fault nowhere and leave their arguments as launched. -/
theorem frame_k : Cert.frame_Kernel := fun m ρ _ => Cert.Kernel.Hand.frame m ρ
theorem frame_ki : Cert.frame_KernelIdeal := fun m ρ _ => Cert.KernelIdeal.Hand.frame m ρ

/-- The idealization rewrote no operation. -/
theorem preserves : Cert.preserves_Kernel_KernelIdeal := trivial

/-- Both idealized programs end with the specification of the arguments in their result buffer. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_, ?_, ?_, ?_, ?_, ?_, ?_, ?_, ?_⟩) (Cert.KernelIdeal.Hand.run_all (F := Ideal) m ρ)
    · exact (h c _ (Cert.KernelIdeal.Hand.mem_uc Cert.KernelIdeal.main_v13 (by decide))).trans (Cert.KernelIdeal.KValue.kernel_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
    · exact (h c _ (Cert.KernelIdeal.Hand.mem_uc Cert.KernelIdeal.main_arg4 (by decide))).trans (Cert.KernelIdeal.Hand.W4_main_arg4 m ρ c)
    · exact (h c _ (Cert.KernelIdeal.Hand.mem_uc Cert.KernelIdeal.main_arg5 (by decide))).trans (Cert.KernelIdeal.Hand.W4_main_arg5 m ρ c)
    · exact (h c _ (Cert.KernelIdeal.Hand.mem_uc Cert.KernelIdeal.main_arg6 (by decide))).trans (Cert.KernelIdeal.Hand.W4_main_arg6 m ρ c)
    · exact (h c _ (Cert.KernelIdeal.Hand.mem_uc Cert.KernelIdeal.main_arg7 (by decide))).trans (Cert.KernelIdeal.Hand.W4_main_arg7 m ρ c)
  · refine (θ_run Cert.ReferenceIdeal.defs _ _).mono (fun r h c => ⟨?_, (h c).2⟩) (Cert.ReferenceIdeal.Value.run (F := Ideal) m' ρ')
    rw [(h c).1, Cert.ReferenceIdeal.Read.val_main_v53_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
